-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x39 : Shape := ⟨2, ![2048, 39]⟩
abbrev S39x100000x10 : Shape := ⟨3, ![39, 100000, 10]⟩
abbrev S100000x1 : Shape := ⟨2, ![100000, 1]⟩
abbrev S_ : Shape := ⟨0, ![]⟩

class Facts : Prop where
  bcast_S_S2048x39 : S_.BroadcastsInDim S2048x39 (![] : Fin 0 → Fin S2048x39.rank)
  reducesTo_S2048x39_S_d0_1 : S2048x39.ReducesTo [0, 1] S_
  h_S_ : 0 < S_.numel
  bcast_S_S39x100000x10 : S_.BroadcastsInDim S39x100000x10 (![] : Fin 0 → Fin S39x100000x10.rank)
  reducesTo_S39x100000x10_S_d0_1_2 : S39x100000x10.ReducesTo [0, 1, 2] S_
  bcast_S_S100000x1 : S_.BroadcastsInDim S100000x1 (![] : Fin 0 → Fin S100000x1.rank)
  reducesTo_S100000x1_S_d0_1 : S100000x1.ReducesTo [0, 1] S_

variable [Facts]

def fn {F : FTy → Type} [FloatOps F] (main_arg0 : IVec S2048x39 32) (main_arg1 : FVec F S2048x39 .f32) (main_arg2 : FVec F S39x100000x10 .f32) (main_arg3 : FVec F S100000x1 .f32) : IVec S_ 1 :=
  let main_v0 : FVec F S2048x39 .f32 := Host.absf main_arg1
  let main_cst : FVec F S_ .f32 := constant S_ .f32 0x7F800000#32
  let main_v1 : FVec F S2048x39 .f32 := broadcastInDim S2048x39 ![] bcast_S_S2048x39 main_cst
  let main_v2 : IVec S2048x39 1 := cmpf .olt main_v0 main_v1
  let main_c : IVec S_ 1 := constantI S_ 1 1#1
  let main_v3 : IVec S_ 1 := (fun x v => Host.reduce IntOp.andi x v reducesTo_S2048x39_S_d0_1 h_S_) main_v2 main_c
  let main_v4 : FVec F S39x100000x10 .f32 := Host.absf main_arg2
  let main_cst_0 : FVec F S_ .f32 := constant S_ .f32 0x7F800000#32
  let main_v5 : FVec F S39x100000x10 .f32 := broadcastInDim S39x100000x10 ![] bcast_S_S39x100000x10 main_cst_0
  let main_v6 : IVec S39x100000x10 1 := cmpf .olt main_v4 main_v5
  let main_c_1 : IVec S_ 1 := constantI S_ 1 1#1
  let main_v7 : IVec S_ 1 := (fun x v => Host.reduce IntOp.andi x v reducesTo_S39x100000x10_S_d0_1_2 h_S_) main_v6 main_c_1
  let main_v8 : IVec S_ 1 := andi main_v3 main_v7
  let main_v9 : FVec F S100000x1 .f32 := Host.absf main_arg3
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  main_v13
-- ==== Kernel.lean ====
abbrev S2048x39 : Shape := ⟨2, ![2048, 39]⟩
abbrev S39x100000x10 : Shape := ⟨3, ![39, 100000, 10]⟩
abbrev S100000x1 : Shape := ⟨2, ![100000, 1]⟩
abbrev S_ : Shape := ⟨0, ![]⟩
abbrev S2048x39x1 : Shape := ⟨3, ![2048, 39, 1]⟩
abbrev S2048 : Shape := ⟨1, ![2048]⟩
abbrev S2048x38 : Shape := ⟨2, ![2048, 38]⟩
abbrev S38x100000x10 : Shape := ⟨3, ![38, 100000, 10]⟩
abbrev S38x2048 : Shape := ⟨2, ![38, 2048]⟩
abbrev S38x2048x1 : Shape := ⟨3, ![38, 2048, 1]⟩
abbrev S38x2048x10 : Shape := ⟨3, ![38, 2048, 10]⟩
abbrev S2048x38x10 : Shape := ⟨3, ![2048, 38, 10]⟩
abbrev S2048x38x1 : Shape := ⟨3, ![2048, 38, 1]⟩
abbrev S38x10x100000 : Shape := ⟨3, ![38, 10, 100000]⟩
abbrev S38x10x38x2048 : Shape := ⟨4, ![38, 10, 38, 2048]⟩
abbrev S1x2048 : Shape := ⟨2, ![1, 2048]⟩
abbrev S1x10x38x2048 : Shape := ⟨4, ![1, 10, 38, 2048]⟩
abbrev S10x38x2048 : Shape := ⟨3, ![10, 38, 2048]⟩

abbrev nBuf : Space → Nat
  | .hbm => 69
  | .vmem => 7
  | .smem => 0
  | _ => 0

abbrev bufTy : (tb : Table) → Fin (tcTables nBuf tb) → BufTy
  | .hbm, ⟨0, _⟩ => ⟨S2048x39, .i32⟩
  | .hbm, ⟨1, _⟩ => ⟨S2048x39, .f32⟩
  | .hbm, ⟨2, _⟩ => ⟨S39x100000x10, .f32⟩
  | .hbm, ⟨3, _⟩ => ⟨S100000x1, .f32⟩
  | .hbm, ⟨4, _⟩ => ⟨S_, .i32⟩
  | .hbm, ⟨5, _⟩ => ⟨S2048x39, .i32⟩
  | .hbm, ⟨6, _⟩ => ⟨S2048x39, .i1⟩
  | .hbm, ⟨7, _⟩ => ⟨S_, .i32⟩
  | .hbm, ⟨8, _⟩ => ⟨S2048x39, .i32⟩
  | .hbm, ⟨9, _⟩ => ⟨S2048x39, .i32⟩
  | .hbm, ⟨10, _⟩ => ⟨S2048x39, .i32⟩
  | .hbm, ⟨11, _⟩ => ⟨S2048x39x1, .i32⟩
  | .hbm, ⟨12, _⟩ => ⟨S2048x39x1, .f32⟩
  | .hbm, ⟨13, _⟩ => ⟨S2048x39, .f32⟩
  | .hbm, ⟨14, _⟩ => ⟨S2048x39, .f32⟩
  | .hbm, ⟨15, _⟩ => ⟨S_, .f32⟩
  | .hbm, ⟨16, _⟩ => ⟨S2048, .f32⟩
  | .hbm, ⟨17, _⟩ => ⟨S2048x38, .i32⟩
  | .hbm, ⟨18, _⟩ => ⟨S38x100000x10, .f32⟩
  | .hbm, ⟨19, _⟩ => ⟨S_, .i32⟩
  | .hbm, ⟨20, _⟩ => ⟨S2048x38, .i32⟩
  | .hbm, ⟨21, _⟩ => ⟨S2048x38, .i1⟩
  | .hbm, ⟨22, _⟩ => ⟨S_, .i32⟩
  | .hbm, ⟨23, _⟩ => ⟨S2048x38, .i32⟩
  | .hbm, ⟨24, _⟩ => ⟨S2048x38, .i32⟩
  | .hbm, ⟨25, _⟩ => ⟨S2048x38, .i32⟩
  | .hbm, ⟨26, _⟩ => ⟨S38x2048, .i32⟩
  | .hbm, ⟨27, _⟩ => ⟨S38x2048x1, .i32⟩
  | .hbm, ⟨28, _⟩ => ⟨S38x2048x10, .f32⟩
  | .hbm, ⟨29, _⟩ => ⟨S2048x38x10, .f32⟩
  | .hbm, ⟨30, _⟩ => ⟨S2048x38, .f32⟩
  | .hbm, ⟨31, _⟩ => ⟨S2048x38, .f32⟩
  | .hbm, ⟨32, _⟩ => ⟨S2048x38x1, .f32⟩
  | .hbm, ⟨33, _⟩ => ⟨S2048x38x10, .f32⟩
  | .hbm, ⟨34, _⟩ => ⟨S2048x38x10, .f32⟩
  | .hbm, ⟨35, _⟩ => ⟨S2048x38x10, .f32⟩
  | .hbm, ⟨36, _⟩ => ⟨S_, .f32⟩
  | .hbm, ⟨37, _⟩ => ⟨S2048, .f32⟩
  | .hbm, ⟨38, _⟩ => ⟨S38x100000x10, .f32⟩
  | .hbm, ⟨39, _⟩ => ⟨S38x100000x10, .bf16⟩
  | .hbm, ⟨40, _⟩ => ⟨S38x10x100000, .bf16⟩
  | .hbm, ⟨41, _⟩ => ⟨S38x2048, .i32⟩
  | .hbm, ⟨42, _⟩ => ⟨S_, .i32⟩
  | .hbm, ⟨43, _⟩ => ⟨S38x2048, .i32⟩
  | .hbm, ⟨44, _⟩ => ⟨S38x2048, .i1⟩
  | .hbm, ⟨45, _⟩ => ⟨S_, .i32⟩
  | .hbm, ⟨46, _⟩ => ⟨S38x2048, .i32⟩
  | .hbm, ⟨47, _⟩ => ⟨S38x2048, .i32⟩
  | .hbm, ⟨48, _⟩ => ⟨S38x2048, .i32⟩
  | .hbm, ⟨49, _⟩ => ⟨S38x2048x1, .i32⟩
  | .hbm, ⟨50, _⟩ => ⟨S38x10x38x2048, .bf16⟩
  | .hbm, ⟨51, _⟩ => ⟨S38x10x38x2048, .bf16⟩
  | .hbm, ⟨52, _⟩ => ⟨S2048x38, .f32⟩
  | .hbm, ⟨53, _⟩ => ⟨S38x2048, .f32⟩
  | .hbm, ⟨54, _⟩ => ⟨S1x2048, .f32⟩
  | .hbm, ⟨55, _⟩ => ⟨S2048, .f32⟩
  | .hbm, ⟨56, _⟩ => ⟨S2048, .f32⟩
  | .hbm, ⟨57, _⟩ => ⟨S_, .f32⟩
  | .hbm, ⟨58, _⟩ => ⟨S2048, .f32⟩
  | .hbm, ⟨59, _⟩ => ⟨S2048, .f32⟩
  | .hbm, ⟨60, _⟩ => ⟨S2048, .f32⟩
  | .hbm, ⟨61, _⟩ => ⟨S2048, .f32⟩
  | .hbm, ⟨62, _⟩ => ⟨S2048, .f32⟩
  | .hbm, ⟨63, _⟩ => ⟨S_, .f32⟩
  | .hbm, ⟨64, _⟩ => ⟨S2048, .f32⟩
  | .hbm, ⟨65, _⟩ => ⟨S2048, .f32⟩
  | .hbm, ⟨66, _⟩ => ⟨S_, .f32⟩
  | .hbm, ⟨67, _⟩ => ⟨S2048, .f32⟩
  | .hbm, ⟨68, _⟩ => ⟨S2048, .f32⟩
  | .local _ .vmem, ⟨0, _⟩ => ⟨S1x10x38x2048, .bf16⟩
  | .local _ .vmem, ⟨1, _⟩ => ⟨S1x10x38x2048, .bf16⟩
  | .local _ .vmem, ⟨2, _⟩ => ⟨S1x10x38x2048, .bf16⟩
  | .local _ .vmem, ⟨3, _⟩ => ⟨S1x10x38x2048, .bf16⟩
  | .local _ .vmem, ⟨4, _⟩ => ⟨S38x2048, .f32⟩
  | .local _ .vmem, ⟨5, _⟩ => ⟨S1x2048, .f32⟩
  | .local _ .vmem, ⟨6, _⟩ => ⟨S1x2048, .f32⟩
  | _, _ => ⟨S2048x39, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_c_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![38], ![false]⟩

def k0_off1 (i : grid0.Coords) : Fin 2 → Nat :=
  let arg0 : BitVec 32 := BitVec.ofNat 32 (i 0).val
  let v15 : Index := Scalar.indexCast arg0
  let c0_11 : Index := 0#32
  ![v15.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x10x38x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x10x38x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S38x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S_S2048x39 : S_.BroadcastsInDim S2048x39 (![] : Fin 0 → Fin S2048x39.rank)
  bcast_S2048x39_S2048x39x1_0_1 : S2048x39.BroadcastsInDim S2048x39x1 (![0, 1] : Fin 2 → Fin S2048x39x1.rank)
  shapeCasts_S2048x39x1_S2048x39 : S2048x39x1.ShapeCasts S2048x39
  reducesTo_S2048x39_S2048_d1 : S2048x39.ReducesTo [1] S2048
  h_S_ : 0 < S_.numel
  slices_S2048x39_S2048x38_0_0 : S2048x39.Slices ![0, 0] S2048x38
  slices_S39x100000x10_S38x100000x10_0_0_0 : S39x100000x10.Slices ![0, 0, 0] S38x100000x10
  bcast_S_S2048x38 : S_.BroadcastsInDim S2048x38 (![] : Fin 0 → Fin S2048x38.rank)
  transposes_S2048x38_S38x2048_1_0 : S2048x38.Transposes [1, 0] S38x2048
  bcast_S38x2048_S38x2048x1_0_1 : S38x2048.BroadcastsInDim S38x2048x1 (![0, 1] : Fin 2 → Fin S38x2048x1.rank)
  transposes_S38x2048x10_S2048x38x10_1_0_2 : S38x2048x10.Transposes [1, 0, 2] S2048x38x10
  bcast_S2048x38_S2048x38x1_0_1 : S2048x38.BroadcastsInDim S2048x38x1 (![0, 1] : Fin 2 → Fin S2048x38x1.rank)
  bcast_S2048x38x1_S2048x38x10_0_1_2 : S2048x38x1.BroadcastsInDim S2048x38x10 (![0, 1, 2] : Fin 3 → Fin S2048x38x10.rank)
  reducesTo_S2048x38x10_S2048_d1_2 : S2048x38x10.ReducesTo [1, 2] S2048
  bitsLt_bf16_f32 : FTy.bits .bf16 < FTy.bits .f32
  transposes_S38x100000x10_S38x10x100000_0_2_1 : S38x100000x10.Transposes [0, 2, 1] S38x10x100000
  bcast_S_S38x2048 : S_.BroadcastsInDim S38x2048 (![] : Fin 0 → Fin S38x2048.rank)
  transposes_S38x10x38x2048_S38x10x38x2048_2_1_0_3 : S38x10x38x2048.Transposes [2, 1, 0, 3] S38x10x38x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x10x38x2048_S1x10x38x2048_0_0_0_0 : ∀ a, (![0, 0, 0, 0] : Fin 4 → Nat) a + S1x10x38x2048.size a ≤ S1x10x38x2048.size a
  h_S1x10x38x2048 : 0 < S1x10x38x2048.numel
  shapeCasts_S1x10x38x2048_S10x38x2048 : S1x10x38x2048.ShapeCasts S10x38x2048
  reduces_S10x38x2048_S38x2048 : S10x38x2048.Reduces [0] S38x2048
  inb_S38x2048_S38x2048_0_0 : ∀ a, (![0, 0] : Fin 2 → Nat) a + S38x2048.size a ≤ S38x2048.size a
  h_S38x2048 : 0 < S38x2048.numel
  shapeCasts_S38x2048_S38x2048 : S38x2048.ShapeCasts S38x2048
  reduces_S38x2048_S2048 : S38x2048.Reduces [0] S2048
  shapeCasts_S2048_S1x2048 : S2048.ShapeCasts S1x2048
  shapeCasts_S1x2048_S2048 : S1x2048.ShapeCasts S2048
  bcast_S_S2048 : S_.BroadcastsInDim S2048 (![] : Fin 0 → Fin S2048.rank)
  gather_S100000x1_S2048x39x1_S2048x39x1_2_0_n_n_0_2_11_wf : GatherDims.WF S100000x1 S2048x39x1 S2048x39x1 [2] [0] [] [0] [] 2 ![1, 1]
  gather_S38x100000x10_S38x2048x1_S38x2048x10_2_1_0_0_1_2_1110_wf : GatherDims.WF S38x100000x10 S38x2048x1 S38x2048x10 [2] [1] [0] [1] [0] 2 ![1, 1, 10]
  gather_S38x10x100000_S38x2048x1_S38x10x38x2048_01_2_n_n_2_2_38101_wf : GatherDims.WF S38x10x100000 S38x2048x1 S38x10x38x2048 [0, 1] [2] [] [2] [] 2 ![38, 10, 1]
  hrank0 : 0 < grid0.rank
  k0_off1_inb : ∀ i : grid0.Coords, ∀ a, (k0_off1 i) a + S1x2048.size a ≤ S38x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10x38x2048.size a ≤ S38x10x38x2048.size a
  hwx0_0 : ∀ i : grid0.Coords, EltTy.bits .bf16 = 32 ∨ (Rect.block (s := S38x10x38x2048) S1x10x38x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x10x38x2048.size a ≤ S38x10x38x2048.size a
  hwx0_1 : ∀ i : grid0.Coords, EltTy.bits .bf16 = 32 ∨ (Rect.block (s := S38x10x38x2048) S1x10x38x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S38x2048.size a ≤ S38x2048.size a
  hwx0_2 : ∀ i : grid0.Coords, EltTy.bits .f32 = 32 ∨ (Rect.block (s := S38x2048) S38x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)

variable [Facts₀]

def gather_S100000x1_S2048x39x1_S2048x39x1_2_0_n_n_0_2_11 : GatherDims S100000x1 S2048x39x1 S2048x39x1 where
  offsetDims := [2]
  collapsedSliceDims := [0]
  operandBatchingDims := []
  startIndicesBatchingDims := []
  startIndexMap := [0]
  indexVectorDim := 2
  sliceSizes := ![1, 1]
  wf := gather_S100000x1_S2048x39x1_S2048x39x1_2_0_n_n_0_2_11_wf
def gather_S38x100000x10_S38x2048x1_S38x2048x10_2_1_0_0_1_2_1110 : GatherDims S38x100000x10 S38x2048x1 S38x2048x10 where
  offsetDims := [2]
  collapsedSliceDims := [1]
  operandBatchingDims := [0]
  startIndicesBatchingDims := [0]
  startIndexMap := [1]
  indexVectorDim := 2
  sliceSizes := ![1, 1, 10]
  wf := gather_S38x100000x10_S38x2048x1_S38x2048x10_2_1_0_0_1_2_1110_wf
def gather_S38x10x100000_S38x2048x1_S38x10x38x2048_01_2_n_n_2_2_38101 : GatherDims S38x10x100000 S38x2048x1 S38x10x38x2048 where
  offsetDims := [0, 1]
  collapsedSliceDims := [2]
  operandBatchingDims := []
  startIndicesBatchingDims := []
  startIndexMap := [2]
  indexVectorDim := 2
  sliceSizes := ![38, 10, 1]
  wf := gather_S38x10x100000_S38x2048x1_S38x10x38x2048_01_2_n_n_2_2_38101_wf

abbrev win0_0 : Pipeline.Window sig grid0 :=
  Pipeline.Window.ofSpec (Memref.whole main_v38) S1x10x38x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S1x10x38x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S38x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v42) S1x2048.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x39 : Shape := ⟨2, ![2048, 39]⟩
abbrev S39x100000x10 : Shape := ⟨3, ![39, 100000, 10]⟩
abbrev S100000x1 : Shape := ⟨2, ![100000, 1]⟩
abbrev S703 : Shape := ⟨1, ![703]⟩
abbrev S_ : Shape := ⟨0, ![]⟩
abbrev S2048x39x1 : Shape := ⟨3, ![2048, 39, 1]⟩
abbrev S2048 : Shape := ⟨1, ![2048]⟩
abbrev S1x703 : Shape := ⟨2, ![1, 703]⟩
abbrev S703x1 : Shape := ⟨2, ![703, 1]⟩
abbrev S2048x703 : Shape := ⟨2, ![2048, 703]⟩
abbrev S2048x703x1 : Shape := ⟨3, ![2048, 703, 1]⟩
abbrev S2048x703x2 : Shape := ⟨3, ![2048, 703, 2]⟩
abbrev S2048x703x10 : Shape := ⟨3, ![2048, 703, 10]⟩

abbrev nBuf : Space → Nat
  | .hbm => 113
  | .vmem => 0
  | .smem => 0
  | _ => 0

abbrev bufTy : (tb : Table) → Fin (tcTables nBuf tb) → BufTy
  | .hbm, ⟨0, _⟩ => ⟨S2048x39, .i32⟩
  | .hbm, ⟨1, _⟩ => ⟨S2048x39, .f32⟩
  | .hbm, ⟨2, _⟩ => ⟨S39x100000x10, .f32⟩
  | .hbm, ⟨3, _⟩ => ⟨S100000x1, .f32⟩
  | .hbm, ⟨4, _⟩ => ⟨S703, .i32⟩
  | .hbm, ⟨5, _⟩ => ⟨S703, .i32⟩
  | .hbm, ⟨6, _⟩ => ⟨S_, .i32⟩
  | .hbm, ⟨7, _⟩ => ⟨S2048x39, .i32⟩
  | .hbm, ⟨8, _⟩ => ⟨S2048x39, .i1⟩
  | .hbm, ⟨9, _⟩ => ⟨S_, .i32⟩
  | .hbm, ⟨10, _⟩ => ⟨S2048x39, .i32⟩
  | .hbm, ⟨11, _⟩ => ⟨S2048x39, .i32⟩
  | .hbm, ⟨12, _⟩ => ⟨S2048x39, .i32⟩
  | .hbm, ⟨13, _⟩ => ⟨S2048x39x1, .i32⟩
  | .hbm, ⟨14, _⟩ => ⟨S2048x39x1, .f32⟩
  | .hbm, ⟨15, _⟩ => ⟨S2048x39, .f32⟩
  | .hbm, ⟨16, _⟩ => ⟨S2048x39, .f32⟩
  | .hbm, ⟨17, _⟩ => ⟨S_, .f32⟩
  | .hbm, ⟨18, _⟩ => ⟨S2048, .f32⟩
  | .hbm, ⟨19, _⟩ => ⟨S1x703, .i32⟩
  | .hbm, ⟨20, _⟩ => ⟨S_, .i32⟩
  | .hbm, ⟨21, _⟩ => ⟨S703, .i32⟩
  | .hbm, ⟨22, _⟩ => ⟨S703, .i1⟩
  | .hbm, ⟨23, _⟩ => ⟨S_, .i32⟩
  | .hbm, ⟨24, _⟩ => ⟨S703, .i32⟩
  | .hbm, ⟨25, _⟩ => ⟨S703, .i32⟩
  | .hbm, ⟨26, _⟩ => ⟨S703, .i32⟩
  | .hbm, ⟨27, _⟩ => ⟨S703x1, .i32⟩
  | .hbm, ⟨28, _⟩ => ⟨S2048x703, .i32⟩
  | .hbm, ⟨29, _⟩ => ⟨S_, .i32⟩
  | .hbm, ⟨30, _⟩ => ⟨S1x703, .i32⟩
  | .hbm, ⟨31, _⟩ => ⟨S1x703, .i1⟩
  | .hbm, ⟨32, _⟩ => ⟨S_, .i32⟩
  | .hbm, ⟨33, _⟩ => ⟨S1x703, .i32⟩
  | .hbm, ⟨34, _⟩ => ⟨S1x703, .i32⟩
  | .hbm, ⟨35, _⟩ => ⟨S1x703, .i32⟩
  | .hbm, ⟨36, _⟩ => ⟨S_, .i32⟩
  | .hbm, ⟨37, _⟩ => ⟨S2048x703, .i32⟩
  | .hbm, ⟨38, _⟩ => ⟨S2048x703, .i1⟩
  | .hbm, ⟨39, _⟩ => ⟨S_, .i32⟩
  | .hbm, ⟨40, _⟩ => ⟨S2048x703, .i32⟩
  | .hbm, ⟨41, _⟩ => ⟨S2048x703, .i32⟩
  | .hbm, ⟨42, _⟩ => ⟨S2048x703, .i32⟩
  | .hbm, ⟨43, _⟩ => ⟨S2048x703, .i32⟩
  | .hbm, ⟨44, _⟩ => ⟨S2048x703x1, .i32⟩
  | .hbm, ⟨45, _⟩ => ⟨S2048x703x1, .i32⟩
  | .hbm, ⟨46, _⟩ => ⟨S2048x703x2, .i32⟩
  | .hbm, ⟨47, _⟩ => ⟨S2048x703x10, .f32⟩
  | .hbm, ⟨48, _⟩ => ⟨S_, .i32⟩
  | .hbm, ⟨49, _⟩ => ⟨S703, .i32⟩
  | .hbm, ⟨50, _⟩ => ⟨S703, .i1⟩
  | .hbm, ⟨51, _⟩ => ⟨S_, .i32⟩
  | .hbm, ⟨52, _⟩ => ⟨S703, .i32⟩
  | .hbm, ⟨53, _⟩ => ⟨S703, .i32⟩
  | .hbm, ⟨54, _⟩ => ⟨S703, .i32⟩
  | .hbm, ⟨55, _⟩ => ⟨S703x1, .i32⟩
  | .hbm, ⟨56, _⟩ => ⟨S2048x703, .f32⟩
  | .hbm, ⟨57, _⟩ => ⟨S2048x703x1, .f32⟩
  | .hbm, ⟨58, _⟩ => ⟨S2048x703x10, .f32⟩
  | .hbm, ⟨59, _⟩ => ⟨S2048x703x10, .f32⟩
  | .hbm, ⟨60, _⟩ => ⟨S1x703, .i32⟩
  | .hbm, ⟨61, _⟩ => ⟨S_, .i32⟩
  | .hbm, ⟨62, _⟩ => ⟨S703, .i32⟩
  | .hbm, ⟨63, _⟩ => ⟨S703, .i1⟩
  | .hbm, ⟨64, _⟩ => ⟨S_, .i32⟩
  | .hbm, ⟨65, _⟩ => ⟨S703, .i32⟩
  | .hbm, ⟨66, _⟩ => ⟨S703, .i32⟩
  | .hbm, ⟨67, _⟩ => ⟨S703, .i32⟩
  | .hbm, ⟨68, _⟩ => ⟨S703x1, .i32⟩
  | .hbm, ⟨69, _⟩ => ⟨S2048x703, .i32⟩
  | .hbm, ⟨70, _⟩ => ⟨S_, .i32⟩
  | .hbm, ⟨71, _⟩ => ⟨S1x703, .i32⟩
  | .hbm, ⟨72, _⟩ => ⟨S1x703, .i1⟩
  | .hbm, ⟨73, _⟩ => ⟨S_, .i32⟩
  | .hbm, ⟨74, _⟩ => ⟨S1x703, .i32⟩
  | .hbm, ⟨75, _⟩ => ⟨S1x703, .i32⟩
  | .hbm, ⟨76, _⟩ => ⟨S1x703, .i32⟩
  | .hbm, ⟨77, _⟩ => ⟨S_, .i32⟩
  | .hbm, ⟨78, _⟩ => ⟨S2048x703, .i32⟩
  | .hbm, ⟨79, _⟩ => ⟨S2048x703, .i1⟩
  | .hbm, ⟨80, _⟩ => ⟨S_, .i32⟩
  | .hbm, ⟨81, _⟩ => ⟨S2048x703, .i32⟩
  | .hbm, ⟨82, _⟩ => ⟨S2048x703, .i32⟩
  | .hbm, ⟨83, _⟩ => ⟨S2048x703, .i32⟩
  | .hbm, ⟨84, _⟩ => ⟨S2048x703, .i32⟩
  | .hbm, ⟨85, _⟩ => ⟨S2048x703x1, .i32⟩
  | .hbm, ⟨86, _⟩ => ⟨S2048x703x1, .i32⟩
  | .hbm, ⟨87, _⟩ => ⟨S2048x703x2, .i32⟩
  | .hbm, ⟨88, _⟩ => ⟨S2048x703x10, .f32⟩
  | .hbm, ⟨89, _⟩ => ⟨S_, .i32⟩
  | .hbm, ⟨90, _⟩ => ⟨S703, .i32⟩
  | .hbm, ⟨91, _⟩ => ⟨S703, .i1⟩
  | .hbm, ⟨92, _⟩ => ⟨S_, .i32⟩
  | .hbm, ⟨93, _⟩ => ⟨S703, .i32⟩
  | .hbm, ⟨94, _⟩ => ⟨S703, .i32⟩
  | .hbm, ⟨95, _⟩ => ⟨S703, .i32⟩
  | .hbm, ⟨96, _⟩ => ⟨S703x1, .i32⟩
  | .hbm, ⟨97, _⟩ => ⟨S2048x703, .f32⟩
  | .hbm, ⟨98, _⟩ => ⟨S2048x703x1, .f32⟩
  | .hbm, ⟨99, _⟩ => ⟨S2048x703x10, .f32⟩
  | .hbm, ⟨100, _⟩ => ⟨S2048x703x10, .f32⟩
  | .hbm, ⟨101, _⟩ => ⟨S2048x703x10, .f32⟩
  | .hbm, ⟨102, _⟩ => ⟨S_, .f32⟩
  | .hbm, ⟨103, _⟩ => ⟨S2048, .f32⟩
  | .hbm, ⟨104, _⟩ => ⟨S2048, .f32⟩
  | .hbm, ⟨105, _⟩ => ⟨S2048, .f32⟩
  | .hbm, ⟨106, _⟩ => ⟨S2048, .f32⟩
  | .hbm, ⟨107, _⟩ => ⟨S_, .f32⟩
  | .hbm, ⟨108, _⟩ => ⟨S2048, .f32⟩
  | .hbm, ⟨109, _⟩ => ⟨S2048, .f32⟩
  | .hbm, ⟨110, _⟩ => ⟨S_, .f32⟩
  | .hbm, ⟨111, _⟩ => ⟨S2048, .f32⟩
  | .hbm, ⟨112, _⟩ => ⟨S2048, .f32⟩
  | _, _ => ⟨S2048x39, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_v1 : Ref sig .tc := ⟨.hbm, 8, rfl⟩
abbrev main_c_2 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_5 : Ref sig .tc := ⟨.hbm, 29, rfl⟩
abbrev main_v18 : Ref sig .tc := ⟨.hbm, 30, rfl⟩
abbrev main_v19 : Ref sig .tc := ⟨.hbm, 31, rfl⟩
abbrev main_c_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_7 : Ref sig .tc := ⟨.hbm, 36, rfl⟩
abbrev main_v23 : Ref sig .tc := ⟨.hbm, 37, rfl⟩
abbrev main_v24 : Ref sig .tc := ⟨.hbm, 38, rfl⟩
abbrev main_c_8 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_9 : Ref sig .tc := ⟨.hbm, 48, rfl⟩
abbrev main_v33 : Ref sig .tc := ⟨.hbm, 49, rfl⟩
abbrev main_v34 : Ref sig .tc := ⟨.hbm, 50, rfl⟩
abbrev main_c_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_11 : Ref sig .tc := ⟨.hbm, 61, rfl⟩
abbrev main_v44 : Ref sig .tc := ⟨.hbm, 62, rfl⟩
abbrev main_v45 : Ref sig .tc := ⟨.hbm, 63, rfl⟩
abbrev main_c_12 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_13 : Ref sig .tc := ⟨.hbm, 70, rfl⟩
abbrev main_v51 : Ref sig .tc := ⟨.hbm, 71, rfl⟩
abbrev main_v52 : Ref sig .tc := ⟨.hbm, 72, rfl⟩
abbrev main_c_14 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_15 : Ref sig .tc := ⟨.hbm, 77, rfl⟩
abbrev main_v56 : Ref sig .tc := ⟨.hbm, 78, rfl⟩
abbrev main_v57 : Ref sig .tc := ⟨.hbm, 79, rfl⟩
abbrev main_c_16 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_17 : Ref sig .tc := ⟨.hbm, 89, rfl⟩
abbrev main_v66 : Ref sig .tc := ⟨.hbm, 90, rfl⟩
abbrev main_v67 : Ref sig .tc := ⟨.hbm, 91, rfl⟩
abbrev main_c_18 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_19 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_20 : Ref sig .tc := ⟨.hbm, 107, rfl⟩
abbrev main_v81 : Ref sig .tc := ⟨.hbm, 108, rfl⟩
abbrev main_v82 : Ref sig .tc := ⟨.hbm, 109, rfl⟩
abbrev main_cst_21 : Ref sig .tc := ⟨.hbm, 110, rfl⟩
abbrev main_v83 : Ref sig .tc := ⟨.hbm, 111, rfl⟩
abbrev main_v84 : Ref sig .tc := ⟨.hbm, 112, rfl⟩

abbrev nD : Nat := 1
abbrev τ : Topo := Topo.v7x

variable {F : FTy → Type} [FloatOps F]

class Facts₀ : Prop where
  bcast_S_S2048x39 : S_.BroadcastsInDim S2048x39 (![] : Fin 0 → Fin S2048x39.rank)
  bcast_S2048x39_S2048x39x1_0_1 : S2048x39.BroadcastsInDim S2048x39x1 (![0, 1] : Fin 2 → Fin S2048x39x1.rank)
  shapeCasts_S2048x39x1_S2048x39 : S2048x39x1.ShapeCasts S2048x39
  reducesTo_S2048x39_S2048_d1 : S2048x39.ReducesTo [1] S2048
  h_S_ : 0 < S_.numel
  bcast_S703_S1x703_1 : S703.BroadcastsInDim S1x703 (![1] : Fin 1 → Fin S1x703.rank)
  bcast_S_S703 : S_.BroadcastsInDim S703 (![] : Fin 0 → Fin S703.rank)
  bcast_S703_S703x1_0 : S703.BroadcastsInDim S703x1 (![0] : Fin 1 → Fin S703x1.rank)
  bcast_S_S1x703 : S_.BroadcastsInDim S1x703 (![] : Fin 0 → Fin S1x703.rank)
  bcast_S_S2048x703 : S_.BroadcastsInDim S2048x703 (![] : Fin 0 → Fin S2048x703.rank)
  bcast_S1x703_S2048x703_0_1 : S1x703.BroadcastsInDim S2048x703 (![0, 1] : Fin 2 → Fin S2048x703.rank)
  bcast_S2048x703_S2048x703x1_0_1 : S2048x703.BroadcastsInDim S2048x703x1 (![0, 1] : Fin 2 → Fin S2048x703x1.rank)
  concatenates_S2048x703x1_S2048x703x1_S2048x703x2_d2 : Shape.Concatenates [S2048x703x1, S2048x703x1] S2048x703x2 2
  bcast_S2048x703x1_S2048x703x10_0_1_2 : S2048x703x1.BroadcastsInDim S2048x703x10 (![0, 1, 2] : Fin 3 → Fin S2048x703x10.rank)
  reducesTo_S2048x703x10_S2048_d1_2 : S2048x703x10.ReducesTo [1, 2] S2048
  bcast_S_S2048 : S_.BroadcastsInDim S2048 (![] : Fin 0 → Fin S2048.rank)
  gather_S100000x1_S2048x39x1_S2048x39x1_2_0_n_n_0_2_11_wf : GatherDims.WF S100000x1 S2048x39x1 S2048x39x1 [2] [0] [] [0] [] 2 ![1, 1]
  gather_S2048x39_S703x1_S2048x703_0_1_n_n_1_1_20481_wf : GatherDims.WF S2048x39 S703x1 S2048x703 [0] [1] [] [1] [] 1 ![2048, 1]
  gather_S39x100000x10_S2048x703x2_S2048x703x10_2_01_n_n_01_2_1110_wf : GatherDims.WF S39x100000x10 S2048x703x2 S2048x703x10 [2] [0, 1] [] [0, 1] [] 2 ![1, 1, 10]

variable [Facts₀]

def gather_S100000x1_S2048x39x1_S2048x39x1_2_0_n_n_0_2_11 : GatherDims S100000x1 S2048x39x1 S2048x39x1 where
  offsetDims := [2]
  collapsedSliceDims := [0]
  operandBatchingDims := []
  startIndicesBatchingDims := []
  startIndexMap := [0]
  indexVectorDim := 2
  sliceSizes := ![1, 1]
  wf := gather_S100000x1_S2048x39x1_S2048x39x1_2_0_n_n_0_2_11_wf
def gather_S2048x39_S703x1_S2048x703_0_1_n_n_1_1_20481 : GatherDims S2048x39 S703x1 S2048x703 where
  offsetDims := [0]
  collapsedSliceDims := [1]
  operandBatchingDims := []
  startIndicesBatchingDims := []
  startIndexMap := [1]
  indexVectorDim := 1
  sliceSizes := ![2048, 1]
  wf := gather_S2048x39_S703x1_S2048x703_0_1_n_n_1_1_20481_wf
def gather_S39x100000x10_S2048x703x2_S2048x703x10_2_01_n_n_01_2_1110 : GatherDims S39x100000x10 S2048x703x2 S2048x703x10 where
  offsetDims := [2]
  collapsedSliceDims := [0, 1]
  operandBatchingDims := []
  startIndicesBatchingDims := []
  startIndexMap := [0, 1]
  indexVectorDim := 2
  sliceSizes := ![1, 1, 10]
  wf := gather_S39x100000x10_S2048x703x2_S2048x703x10_2_01_n_n_01_2_1110_wf

class Facts : Prop extends Facts₀ where

variable [Facts]
-- ==== Proof.Spec.lean ====
/-
  The mathematics both programs compute, stated once over the extended reals.

  A field-aware factorisation machine: sample `b` has 39 feature columns; column `g` selects row
  `rowOf (idx b g)` of every embedding table (jnp's index rule: a negative index counts from the end of the axis,
  and the gather clamps what is still out of range). `A b i g e` is entry `e` of the row that column `g` selects in
  table `i`. The second-order term sums, over the pairs `i < j` of the first 38 fields,
  `(A b i j · v_j) · (A b j i · v_i)` over the 10 entries. The kernel instead sums over ALL ordered pairs of the 38
  fields, subtracts the diagonal and halves; the pairs are listed by two literal tables of 703 entries.
-/
import Idealize.ShloMosaic.PureOps.Ideal
import Idealize.ShloMosaic.Lib.ValueIdx

noncomputable section

open scoped BigOperators

namespace Cert.Spec

open Idealize.ShloMosaic Idealize.ShloMosaic.ValueIdx

/-- jnp's index rule against an axis of extent `N`: a negative index counts from the end. -/
def nrm (N x : BitVec 32) : BitVec 32 := Scalar.select (IntOp.cmpi .slt x 0#32) (IntOp.addi x N) x

/-- A feature-column index as a gather reads it: normalised against 39, read signed, clamped into `[0, 38]`. -/
def col (x : BitVec 32) : Fin 39 := ⟨min (nrm 39#32 x).toInt.toNat 38, by omega⟩

/-- An embedding-row index as a gather reads it: normalised against 100000, read signed, clamped into `[0, 99999]`. -/
def rowOf (x : BitVec 32) : Fin 100000 := ⟨min (nrm 100000#32 x).toInt.toNat 99999, by omega⟩

/-- The index array `[2048, 39]`, the embedding tables `[39, 100000, 10]`, a batch vector `[2048]`, a pair table `[703]`. -/
abbrev SI : Shape := ⟨2, ![2048, 39]⟩
abbrev SE : Shape := ⟨3, ![39, 100000, 10]⟩
abbrev SB : Shape := ⟨1, ![2048]⟩
abbrev ST : Shape := ⟨1, ![703]⟩
/-- The two gathered operands of the kernel `[38, 10, 38, 2048]` and its transposed values `[38, 2048]`. -/
abbrev SH : Shape := ⟨4, ![38, 10, 38, 2048]⟩
abbrev SV : Shape := ⟨2, ![38, 2048]⟩

/-- One of the first 38 fields as one of the 39. -/
def up (i : Fin 38) : Fin 39 := ⟨i.val, by omega⟩

/-- Entry `t` of a literal pair table, as a field. -/
def tab (k : ST.Idx → BitVec 32) (p : Fin 703) : Fin 39 := col (k (ix1 p))

section
variable (emb : SE.Idx → EReal) (idx : SI.Idx → BitVec 32) (vals : SI.Idx → EReal)

/-- Entry `e` of the row of table `i` that sample `b`'s column `g` selects. -/
def A (b : Fin 2048) (i g : Fin 39) (e : Fin 10) : EReal := emb (ix3 i (rowOf (idx (ix2 b g))) e)

/-- What the kernel accumulates over its 38 grid points: all ordered pairs of the first 38 fields. -/
def rawK (b : Fin 2048) : EReal :=
  ∑ i : Fin 38, vals (ix2 b (up i)) * ∑ g : Fin 38, vals (ix2 b (up g)) *
    ∑ e : Fin 10, A emb idx b (up i) (up g) e * A emb idx b (up g) (up i) e

/-- The diagonal the kernel's program subtracts. -/
def diagK (b : Fin 2048) : EReal :=
  ∑ f : Fin 38, ∑ e : Fin 10, (vals (ix2 b (up f)) * vals (ix2 b (up f))) *
    (A emb idx b (up f) (up f) e * A emb idx b (up f) (up f) e)

/-- The reference's second-order term over the listed pairs `(pI p, pJ p)`. -/
def secR (pI pJ : Fin 703 → Fin 39) (b : Fin 2048) : EReal :=
  ∑ p : Fin 703, ∑ e : Fin 10, (A emb idx b (pI p) (pJ p) e * vals (ix2 b (pJ p))) *
    (A emb idx b (pJ p) (pI p) e * vals (ix2 b (pI p)))

end

/-- One grid point's contribution, over the kernel's three operand arrays as the region finds them. -/
def partOf (a bt : SH.Idx → EReal) (v : SV.Idx → EReal) (i : Fin 38) (b : Fin 2048) : EReal :=
  v (ix2 i b) * ∑ g : Fin 38, v (ix2 g b) * ∑ e : Fin 10, a (ix4 i e g b) * bt (ix4 i e g b)

/-- The kernel's accumulated output over those arrays. -/
def rawOf (a bt : SH.Idx → EReal) (v : SV.Idx → EReal) (b : Fin 2048) : EReal := ∑ i : Fin 38, partOf a bt v i b

/-- The logistic tail both programs end with: `1 / (1 + exp (-(x + y)))`, the ones the f32 word of 1.0. -/
def sigTail (x y : SB.Idx → EReal) : SB.Idx → EReal := fun j =>
  Ideal.div (Ideal.ofBits .f32 0x3F800000#32) (Ideal.ofBits .f32 0x3F800000#32 + Ideal.exp (-(x j + y j)))

/-- The kernel's program's second-order term from its accumulated output and the diagonal: half their difference,
    the half the f32 word of 0.5. -/
def halfDiff (raw diag : SB.Idx → EReal) : SB.Idx → EReal := fun j =>
  Ideal.ofBits .f32 0x3F000000#32 * (raw j - diag j)

/-- What the two literal tables must satisfy: they list pairs `i < j` of the first 38 fields, without repetition. -/
def PairTable (pI pJ : Fin 703 → Fin 39) : Prop :=
  (∀ p, (pI p).val < (pJ p).val ∧ (pJ p).val < 38) ∧ Function.Injective fun p => (pI p, pJ p)

end Cert.Spec

end
-- ==== Proof.LibPairSum.lean ====
/-
  Sums over unordered pairs. For a symmetric weight `w` on `Fin n × Fin n` the sum over all ordered pairs is twice the
  sum over the pairs `i < j` plus the diagonal, so half of (all pairs minus the diagonal) is the sum over `i < j`; and a
  list of `N` pairs `i < j` without repetition, `N` the number of such pairs, enumerates them: summing along the list is
  summing over the pairs. Real weights; nothing here is specific to any extent.
-/
import Mathlib.Algebra.BigOperators.Ring.Finset
import Mathlib.Algebra.BigOperators.Group.Finset.Basic
import Mathlib.Data.Fintype.BigOperators
import Mathlib.Data.Real.Basic
import Mathlib.Tactic.Ring
import Mathlib.Tactic.Linarith

open scoped BigOperators

namespace Cert.Lib.PairSum

/-- The pairs `i < j`. -/
def upper (n : ℕ) : Finset (Fin n × Fin n) := Finset.univ.filter fun q => q.1 < q.2

theorem mem_upper {n : ℕ} (q : Fin n × Fin n) : q ∈ upper n ↔ q.1 < q.2 := by
  simp [upper]

/-- The sum over the pairs `i < j` as a double sum with the other entries zeroed. -/
theorem sum_upper {n : ℕ} (f : Fin n → Fin n → ℝ) :
    ∑ q ∈ upper n, f q.1 q.2 = ∑ i, ∑ j, if i < j then f i j else 0 := by
  unfold upper
  rw [Finset.sum_filter, Fintype.sum_prod_type]

/-- All ordered pairs: twice the pairs `i < j`, plus the diagonal, for a symmetric weight. -/
theorem sum_all_eq {n : ℕ} (w : Fin n → Fin n → ℝ) (hw : ∀ i j, w i j = w j i) :
    ∑ i, ∑ j, w i j = 2 * ∑ q ∈ upper n, w q.1 q.2 + ∑ i, w i i := by
  have hsplit : ∀ i j, w i j = (if i < j then w i j else 0) + (if i = j then w i j else 0) + (if j < i then w i j else 0) := by
    intro i j
    rcases lt_trichotomy i j with h | h | h
    · simp [h, ne_of_lt h, not_lt_of_gt h]
    · subst h; simp
    · simp [h, ne_of_gt h, not_lt_of_gt h]
  have hdiag : ∑ i, ∑ j, (if i = j then w i j else 0) = ∑ i, w i i := by
    refine Finset.sum_congr rfl fun i _ => ?_
    simp
  have hlow : ∑ i, ∑ j, (if j < i then w i j else 0) = ∑ i, ∑ j, if i < j then w i j else 0 := by
    rw [Finset.sum_comm]
    refine Finset.sum_congr rfl fun i _ => Finset.sum_congr rfl fun j _ => ?_
    rw [hw j i]
  calc ∑ i, ∑ j, w i j
      = ∑ i, ∑ j, ((if i < j then w i j else 0) + (if i = j then w i j else 0) + (if j < i then w i j else 0)) :=
        Finset.sum_congr rfl fun i _ => Finset.sum_congr rfl fun j _ => hsplit i j
    _ = (∑ i, ∑ j, if i < j then w i j else 0) + (∑ i, ∑ j, if i = j then w i j else 0)
          + ∑ i, ∑ j, if j < i then w i j else 0 := by
        simp only [Finset.sum_add_distrib]
    _ = 2 * ∑ q ∈ upper n, w q.1 q.2 + ∑ i, w i i := by
        rw [hdiag, hlow, sum_upper]; ring

/-- Half of (all ordered pairs minus the diagonal) is the sum over the pairs `i < j`. -/
theorem half_offdiag {n : ℕ} (w : Fin n → Fin n → ℝ) (hw : ∀ i j, w i j = w j i) :
    (1 / 2 : ℝ) * (∑ i, ∑ j, w i j - ∑ i, w i i) = ∑ q ∈ upper n, w q.1 q.2 := by
  rw [sum_all_eq w hw]; ring

/-- A repetition-free list of `N` pairs `i < j`, `N` their number, enumerates them. -/
theorem sum_enum {n N : ℕ} (φ : Fin N → Fin n × Fin n) (hlt : ∀ p, (φ p).1 < (φ p).2) (hinj : Function.Injective φ)
    (hN : (upper n).card = N) (f : Fin n × Fin n → ℝ) :
    ∑ p, f (φ p) = ∑ q ∈ upper n, f q := by
  have himg : Finset.univ.image φ = upper n := by
    refine Finset.eq_of_subset_of_card_le ?_ ?_
    · intro q hq
      obtain ⟨p, -, rfl⟩ := Finset.mem_image.mp hq
      exact (mem_upper _).mpr (hlt p)
    · rw [Finset.card_image_of_injective _ hinj, Finset.card_univ, Fintype.card_fin, hN]
  rw [← himg, Finset.sum_image fun a _ b _ h => hinj h]

end Cert.Lib.PairSum
-- ==== Proof.Algebra.lean ====
/-
  The law that joins the two programs. With real entries, write `v_i` for sample `b`'s value in field `i` and
  `S i g = Σ_e A b i g e · A b g i e`, which is symmetric in `(i, g)`. The kernel's accumulated output is
  `Σ_i v_i · Σ_g v_g · S i g` over all ordered pairs of the first 38 fields, the diagonal it subtracts is
  `Σ_f v_f² · S f f`, and the reference sums `(A b i j e · v_j) · (A b j i e · v_i)` over the listed pairs `i < j` and the
  entries: half of (all ordered pairs minus the diagonal) is the sum over the pairs `i < j`, which the two tables
  enumerate. The entries must be real: on the extended reals a difference does not cancel at the infinities.
-/
import proofs.«108280_j73169062855073_1_alg».proof.Proof.Spec
import proofs.«108280_j73169062855073_1_alg».proof.Proof.LibPairSum
import Idealize.ShloMosaic.PureOps.Ideal.Laws

noncomputable section

open scoped BigOperators

namespace Cert.Algebra

open Cert.Spec Cert.Lib.PairSum Idealize.ShloMosaic Idealize.ShloMosaic.ValueIdx

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 word of 0.5 denotes the real one half. -/
theorem half_val : Ideal.ofBits .f32 0x3F000000#32 = ((1 / 2 : ℝ) : EReal) := by
  simp [Ideal.ofBits, Ideal.ieee, -EReal.coe_mul]
  norm_num

/-- There are 703 pairs `i < j` of 38 fields. -/
theorem card_upper : (upper 38).card = 703 := by decide +kernel

section Real

variable (er : SE.Idx → ℝ) (idx : SI.Idx → BitVec 32) (vr : SI.Idx → ℝ) (b : Fin 2048)

/-- The selected entry, as a real. -/
def αR (i g : Fin 39) (e : Fin 10) : ℝ := er (ix3 i (rowOf (idx (ix2 b g))) e)

theorem A_coe (i g : Fin 39) (e : Fin 10) : A (fun i => (er i : EReal)) idx b i g e = (αR er idx b i g e : EReal) := rfl

/-- `S i g`, over any two of the 39 fields. -/
def SR (i g : Fin 39) : ℝ := ∑ e : Fin 10, αR er idx b i g e * αR er idx b g i e

theorem SR_symm (i g : Fin 39) : SR er idx b i g = SR er idx b g i :=
  Finset.sum_congr rfl fun e _ => mul_comm _ _

/-- The weight of the ordered pair `(i, g)`. -/
def wR (i g : Fin 39) : ℝ := vr (ix2 b i) * (vr (ix2 b g) * SR er idx b i g)

theorem wR_symm (i g : Fin 39) : wR er idx vr b i g = wR er idx vr b g i := by
  unfold wR; rw [SR_symm er idx b i g]; ring

def KR : ℝ := ∑ i : Fin 38, vr (ix2 b (up i)) * ∑ g : Fin 38, vr (ix2 b (up g)) *
    ∑ e : Fin 10, αR er idx b (up i) (up g) e * αR er idx b (up g) (up i) e
def DR : ℝ := ∑ f : Fin 38, ∑ e : Fin 10, (vr (ix2 b (up f)) * vr (ix2 b (up f))) *
    (αR er idx b (up f) (up f) e * αR er idx b (up f) (up f) e)
def RR (pI pJ : Fin 703 → Fin 39) : ℝ := ∑ p : Fin 703, ∑ e : Fin 10, (αR er idx b (pI p) (pJ p) e * vr (ix2 b (pJ p))) *
    (αR er idx b (pJ p) (pI p) e * vr (ix2 b (pI p)))

theorem KR_eq : KR er idx vr b = ∑ i : Fin 38, ∑ g : Fin 38, wR er idx vr b (up i) (up g) := by
  unfold KR wR SR
  refine Finset.sum_congr rfl fun i _ => ?_
  rw [Finset.mul_sum]

theorem DR_eq : DR er idx vr b = ∑ f : Fin 38, wR er idx vr b (up f) (up f) := by
  unfold DR wR SR
  refine Finset.sum_congr rfl fun f _ => ?_
  rw [Finset.mul_sum, Finset.mul_sum]
  refine Finset.sum_congr rfl fun e _ => ?_
  ring

theorem RR_eq (pI pJ : Fin 703 → Fin 39) : RR er idx vr b pI pJ = ∑ p : Fin 703, wR er idx vr b (pI p) (pJ p) := by
  unfold RR wR SR
  refine Finset.sum_congr rfl fun p _ => ?_
  rw [Finset.mul_sum, Finset.mul_sum]
  refine Finset.sum_congr rfl fun e _ => ?_
  ring

/-- The law, over the reals. -/
theorem real_law (pI pJ : Fin 703 → Fin 39) (htab : PairTable pI pJ) :
    (1 / 2 : ℝ) * (KR er idx vr b - DR er idx vr b) = RR er idx vr b pI pJ := by
  obtain ⟨hlt, hinj⟩ := htab
  let φ : Fin 703 → Fin 38 × Fin 38 := fun p =>
    (⟨(pI p).val, lt_trans (hlt p).1 (hlt p).2⟩, ⟨(pJ p).val, (hlt p).2⟩)
  have hφ1 : ∀ p, up (φ p).1 = pI p := fun p => Fin.ext rfl
  have hφ2 : ∀ p, up (φ p).2 = pJ p := fun p => Fin.ext rfl
  have hφlt : ∀ p, (φ p).1 < (φ p).2 := fun p => (hlt p).1
  have hφinj : Function.Injective φ := by
    intro p p' h
    apply hinj
    have h1 : pI p = pI p' := by rw [← hφ1 p, ← hφ1 p', h]
    have h2 : pJ p = pJ p' := by rw [← hφ2 p, ← hφ2 p', h]
    exact Prod.ext h1 h2
  rw [KR_eq, DR_eq, RR_eq,
    half_offdiag (fun i g : Fin 38 => wR er idx vr b (up i) (up g)) (fun i g => wR_symm er idx vr b (up i) (up g)),
    ← sum_enum φ hφlt hφinj card_upper (fun q => wR er idx vr b (up q.1) (up q.2))]
  refine Finset.sum_congr rfl fun p _ => ?_
  rw [hφ1, hφ2]

end Real

/-- The law, over the extended reals, for real entries: half of (the kernel's accumulated output minus the diagonal)
    is the reference's second-order term. -/
theorem bridge (emb : SE.Idx → EReal) (idx : SI.Idx → BitVec 32) (vals : SI.Idx → EReal)
    (hv : ∀ i, ∃ r : ℝ, vals i = (r : EReal)) (he : ∀ i, ∃ r : ℝ, emb i = (r : EReal))
    (pI pJ : Fin 703 → Fin 39) (htab : PairTable pI pJ) (b : Fin 2048) :
    Ideal.ofBits .f32 0x3F000000#32 * (rawK emb idx vals b - diagK emb idx vals b) = secR emb idx vals pI pJ b := by
  choose vr hvr using hv
  choose er her using he
  obtain rfl : vals = fun i => (vr i : EReal) := funext hvr
  obtain rfl : emb = fun i => (er i : EReal) := funext her
  have hK : rawK (fun i => (er i : EReal)) idx (fun i => (vr i : EReal)) b = (KR er idx vr b : EReal) := by
    unfold rawK KR
    simp only [A_coe, coe_sum, EReal.coe_mul]
  have hD : diagK (fun i => (er i : EReal)) idx (fun i => (vr i : EReal)) b = (DR er idx vr b : EReal) := by
    unfold diagK DR
    simp only [A_coe, coe_sum, EReal.coe_mul]
  have hR : secR (fun i => (er i : EReal)) idx (fun i => (vr i : EReal)) pI pJ b = (RR er idx vr b pI pJ : EReal) := by
    unfold secR RR
    simp only [A_coe, coe_sum, EReal.coe_mul]
  rw [hK, hD, hR, half_val, ← EReal.coe_sub, ← EReal.coe_mul, real_law er idx vr b pI pJ htab]

end Cert.Algebra

end
-- ==== Proof.RefStages.lean ====
/-
  The reference's @main as a handful of named stages, each a pure function of the argument arrays: the two literal
  pair tables, jnp's index rule at the three shapes it is applied at, a column gathered out of the index or value
  array, the embedding rows a pair of (table, row) indices selects, one side of the pairwise product, the second-order
  sum, the first-order sum, the logistic tail. The run is stated over `RefTerm`; the value proof reads the stages.
-/
import proofs.«108280_j73169062855073_1_alg».proof.ReferenceIdeal
import proofs.«108280_j73169062855073_1_alg».proof.Proof.Gen.ReferenceIdeal

noncomputable section

namespace Cert.ReferenceIdeal.Stages

open Cert.ReferenceIdeal Idealize.ShloMosaic
open Cert.ReferenceIdeal.Facts₀

variable {F : FTy → Type} [FloatOps F]

/-- The table of first fields `i` of the 703 pairs, and the table of second fields `j`. -/
def litI : IVec S703 32 := fun i => lit0 (S703.rowMajor i)
def litJ : IVec S703 32 := fun i => lit1 (S703.rowMajor i)

/-- jnp's index rule against the 39 fields, on a table `[703]` … -/
def nrmT (k : IVec S703 32) : IVec S703 32 :=
  select (cmpi .slt k (broadcastInDim S703 ![] bcast_S_S703 (constantI S_ 32 0#32)))
    (addi k (broadcastInDim S703 ![] bcast_S_S703 (constantI S_ 32 39#32))) k
/-- … on a table laid out `[1, 703]` … -/
def nrmR (k : IVec S1x703 32) : IVec S1x703 32 :=
  select (cmpi .slt k (broadcastInDim S1x703 ![] bcast_S_S1x703 (constantI S_ 32 0#32)))
    (addi k (broadcastInDim S1x703 ![] bcast_S_S1x703 (constantI S_ 32 39#32))) k
/-- … and against the 100000 rows, on gathered indices `[2048, 703]`. -/
def nrmBP (x : IVec S2048x703 32) : IVec S2048x703 32 :=
  select (cmpi .slt x (broadcastInDim S2048x703 ![] bcast_S_S2048x703 (constantI S_ 32 0#32)))
    (addi x (broadcastInDim S2048x703 ![] bcast_S_S2048x703 (constantI S_ 32 100000#32))) x

/-- Column `k p` of an array `[2048, 39]`, for every pair `p`: `x[:, k]`. -/
def colOf {α : Type} (x : S2048x39.Idx → α) (k : IVec S703 32) : S2048x703.Idx → α :=
  Host.gather gather_S2048x39_S703x1_S2048x703_0_1_n_n_1_1_20481 x (broadcastInDim S703x1 ![0] bcast_S703_S703x1_0 (nrmT k))

/-- The rows `emb[k0 p, cols b p, :]`: a gather at the two-component index (table, row). -/
def embRows (a2 : FVec F S39x100000x10 .f32) (k0 : IVec S703 32) (cols : IVec S2048x703 32) : FVec F S2048x703x10 .f32 :=
  Host.gather gather_S39x100000x10_S2048x703x2_S2048x703x10_2_01_n_n_01_2_1110 a2
    (concatenate S2048x703x2 2
      [⟨S2048x703x1, broadcastInDim S2048x703x1 ![0, 1] bcast_S2048x703_S2048x703x1_0_1
          (broadcastInDim S2048x703 ![0, 1] bcast_S1x703_S2048x703_0_1 (nrmR (broadcastInDim S1x703 ![1] bcast_S703_S1x703_1 k0)))⟩,
       ⟨S2048x703x1, broadcastInDim S2048x703x1 ![0, 1] bcast_S2048x703_S2048x703x1_0_1 (nrmBP cols)⟩]
      concatenates_S2048x703x1_S2048x703x1_S2048x703x2_d2)

/-- One side of the pairwise product: `emb[k0, idx[:, k1]] * vals[:, k1, None]`. -/
def side (a0 : IVec S2048x39 32) (a1 : FVec F S2048x39 .f32) (a2 : FVec F S39x100000x10 .f32) (k0 k1 : IVec S703 32) :
    FVec F S2048x703x10 .f32 :=
  mulf (embRows a2 k0 (colOf a0 k1))
    (broadcastInDim S2048x703x10 ![0, 1, 2] bcast_S2048x703x1_S2048x703x10_0_1_2
      (broadcastInDim S2048x703x1 ![0, 1] bcast_S2048x703_S2048x703x1_0_1 (colOf a1 k1)))

/-- The second-order term: the product of the two sides summed over pairs and entries. -/
def second (a0 : IVec S2048x39 32) (a1 : FVec F S2048x39 .f32) (a2 : FVec F S39x100000x10 .f32) : FVec F S2048 .f32 :=
  Host.reduceAdd (mulf (side a0 a1 a2 litI litJ) (side a0 a1 a2 litJ litI)) (constant S_ .f32 0x00000000#32)
    reducesTo_S2048x703x10_S2048_d1_2 h_S_

/-- The first-order term: `sum(w1[idx].squeeze(-1) * vals, axis=1)`. -/
def first (a0 : IVec S2048x39 32) (a1 : FVec F S2048x39 .f32) (a3 : FVec F S100000x1 .f32) : FVec F S2048 .f32 :=
  Host.reduceAdd
    (mulf
      (shapeCast S2048x39
        (Host.gather gather_S100000x1_S2048x39x1_S2048x39x1_2_0_n_n_0_2_11 a3
          (broadcastInDim S2048x39x1 ![0, 1] bcast_S2048x39_S2048x39x1_0_1
            (select (cmpi .slt a0 (broadcastInDim S2048x39 ![] bcast_S_S2048x39 (constantI S_ 32 0#32)))
              (addi a0 (broadcastInDim S2048x39 ![] bcast_S_S2048x39 (constantI S_ 32 100000#32))) a0)))
        shapeCasts_S2048x39x1_S2048x39)
      a1)
    (constant S_ .f32 0x00000000#32) reducesTo_S2048x39_S2048_d1 h_S_

/-- The logistic tail: `1 / (1 + exp (-(x + y)))`. -/
def tail (x y : FVec F S2048 .f32) : FVec F S2048 .f32 :=
  Host.divf (broadcastInDim S2048 ![] bcast_S_S2048 (constant S_ .f32 0x3F800000#32))
    (addf (broadcastInDim S2048 ![] bcast_S_S2048 (constant S_ .f32 0x3F800000#32)) (Host.exp (Host.negf (addf x y))))

/-- @main's result as one function of the four argument arrays. -/
def RefTerm (a0 : IVec S2048x39 32) (a1 : FVec F S2048x39 .f32) (a2 : FVec F S39x100000x10 .f32) (a3 : FVec F S100000x1 .f32) :
    FVec F S2048 .f32 :=
  tail (first a0 a1 a3) (second a0 a1 a2)

end Cert.ReferenceIdeal.Stages

end
-- ==== Proof.Tables.lean ====
/-
  The two literal pair tables of the reference list the pairs `i < j` of the first 38 fields, each exactly once.

  Entry `p` of a table, read as a field, is a closed natural-number expression of the table's raw word at `p`
  (the row-major position of a rank-1 index is its coordinate). Over the 703 entries one then decides, entry by
  entry, that the first field is below the second, that the second is below 38, and that the pair's rank in the
  lexicographic enumeration of all pairs `i < j`,
  `rank i j = 37 i - i (i - 1) / 2 + (j - i - 1)`, is the entry's own position. Equal pairs have equal ranks,
  so the listing has no repetition.
-/
import proofs.«108280_j73169062855073_1_alg».proof.Proof.RefStages
import proofs.«108280_j73169062855073_1_alg».proof.Proof.Spec

namespace Cert.ReferenceIdeal.Tables

open Idealize.ShloMosaic Idealize.ShloMosaic.ValueIdx
open Cert.Spec Cert.ReferenceIdeal

/-- A raw table word read as a field number: a negative word counts from the end of the 39 fields, then the word is
    read signed and clamped into `[0, 38]`. -/
def fld (w : BitVec 32) : Nat := min (nrm 39#32 w).toInt.toNat 38

/-- The position of the pair `i < j` in the lexicographic enumeration of the pairs of `0, …, 37`. -/
def rank (i j : Nat) : Nat := i * 37 - i * (i - 1) / 2 + (j - i - 1)

/-- The row-major position of a rank-1 index is its coordinate. -/
theorem rowMajor_ix1 (p : Fin 703) : S703.rowMajor (ix1 p) = p :=
  Fin.ext (Shape.rowMajor_val_one (d := ![703]) (ix1 p))

theorem tab_litI_val (p : Fin 703) : (tab Stages.litI p).val = fld (lit0t p.val) := by
  show fld (lit0 (S703.rowMajor (ix1 p))) = _
  rw [rowMajor_ix1]

theorem tab_litJ_val (p : Fin 703) : (tab Stages.litJ p).val = fld (lit1t p.val) := by
  show fld (lit1 (S703.rowMajor (ix1 p))) = _
  rw [rowMajor_ix1]

/-- Entry by entry: first field below second, second below 38, and the pair's rank is the entry's position. -/
theorem entries : ∀ p : Fin 703,
    fld (lit0t p.val) < fld (lit1t p.val) ∧ fld (lit1t p.val) < 38 ∧
      rank (fld (lit0t p.val)) (fld (lit1t p.val)) = p.val := by
  decide +kernel

theorem pair_table : Cert.Spec.PairTable (Cert.Spec.tab Cert.ReferenceIdeal.Stages.litI)
    (Cert.Spec.tab Cert.ReferenceIdeal.Stages.litJ) := by
  refine ⟨fun p => ?_, fun p q h => ?_⟩
  · rw [tab_litI_val, tab_litJ_val]
    exact ⟨(entries p).1, (entries p).2.1⟩
  · have hI : (tab Stages.litI p).val = (tab Stages.litI q).val := congrArg (fun x => x.1.val) h
    have hJ : (tab Stages.litJ p).val = (tab Stages.litJ q).val := congrArg (fun x => x.2.val) h
    rw [tab_litI_val, tab_litI_val] at hI
    rw [tab_litJ_val, tab_litJ_val] at hJ
    apply Fin.ext
    rw [← (entries p).2.2, ← (entries q).2.2, hI, hJ]

end Cert.ReferenceIdeal.Tables
-- ==== Proof.Finite.lean ====
/-
  Under the precondition every entry of the value array and of the embedding tables is a real number.

  The precondition is a conjunction of three statements "every entry's absolute value is strictly below +∞", each a
  reduction by `and` over a whole array that came out 1; such a reduction met a 1 at every index. At the extended
  reals the absolute value of `x` is `max x (-x)`, which is `+∞` at both infinities, so an entry whose absolute
  value is strictly below `+∞` is a real number.
-/
import proofs.«108280_j73169062855073_1_alg».proof.Defs
import proofs.«108280_j73169062855073_1_alg».proof.Proof.Gen.KernelIdeal
import proofs.«108280_j73169062855073_1_alg».proof.Proof.Gen.Pre_finite_inputs
import Idealize.ShloMosaic.Lib.ReduceAll
import Idealize.ShloMosaic.Lib.ValueIdx

noncomputable section

namespace Cert.KernelIdeal.Finite

open Idealize.ShloMosaic Idealize.ShloMosaic.ValueIdx Idealize.SL.Sem

/-- The scalar shape has one index. -/
instance : Subsingleton Cert.Pre_finite_inputs.S_.Idx := ⟨fun a b => funext fun d => d.elim0⟩

/-- The f32 word of `+∞` is the extended real `⊤`. -/
theorem ofBits_inf : Ideal.ofBits .f32 0x7F800000#32 = (⊤ : EReal) := by simp [Ideal.ofBits, Ideal.ieee]

/-- The absolute value `max x (-x)` of an extended real compares strictly below the f32 word of `+∞`. -/
def AbsLt (x : EReal) : Prop := Ideal.cmp .olt (max x (-x)) (Ideal.ofBits .f32 0x7F800000#32) = 1#1

/-- An extended real whose absolute value compares strictly below `+∞` is a real number. -/
theorem real_of_abs_lt (x : EReal) (h : AbsLt x) : ∃ r : ℝ, x = (r : EReal) := by
  unfold AbsLt at h
  rw [ofBits_inf] at h
  induction x using EReal.rec with
  | bot => simp [Ideal.cmp] at h
  | top => simp [Ideal.cmp] at h
  | coe r => exact ⟨r, rfl⟩

/-- The precondition read back: every entry of the value array, and every entry of the embedding tables, has its
    absolute value strictly below `+∞`. -/
theorem decode (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, AbsLt (m ((c.tc : Thread Cert.KernelIdeal.nD Cert.KernelIdeal.τ).loc Cert.KernelIdeal.main_arg1) i)) ∧
    (∀ i, AbsLt (m ((c.tc : Thread Cert.KernelIdeal.nD Cert.KernelIdeal.τ).loc Cert.KernelIdeal.main_arg2) i)) := by
  have e := congrFun (h c) ix0
  dsimp only [Cert.Pre_finite_inputs.fn] at e
  obtain ⟨e38, -⟩ := IntOp.andi_eq_one.1 e
  obtain ⟨e3, e7⟩ := IntOp.andi_eq_one.1 e38
  exact ⟨fun i => Host.reduce_andi_all _ _ _ _ ix0 e3 i, fun i => Host.reduce_andi_all _ _ _ _ ix0 e7 i⟩

theorem vals_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg1) i = (r : EReal) :=
  fun i => real_of_abs_lt _ ((decode m h c).1 i)

theorem emb_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg2) i = (r : EReal) :=
  fun i => real_of_abs_lt _ ((decode m h c).2 i)

end Cert.KernelIdeal.Finite

end
-- ==== Proof.RefRun.lean ====
/-
  The reference's @main read as a list of its 109 host operations, in order, and its run: every weakly fair execution
  terminates with the result buffer at the composed pure term of the four argument arrays (the logistic tail of the
  first-order sum plus the second-order pairwise sum), the arguments unchanged.
-/
import proofs.«108280_j73169062855073_1_alg».proof.Proof.RefStages
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The (table, row) index pairs: two index arrays `[2048, 703, 1]` laid side by side along the last axis, as a function
    of the two arrays. The two operations of @main that build the pairs apply exactly this function; named, its operands
    are plain arguments. -/
def cat2 : (⟨S2048x703x1, .i32⟩ : BufTy).Contents (Elt F) → (⟨S2048x703x1, .i32⟩ : BufTy).Contents (Elt F) → (⟨S2048x703x2, .i32⟩ : BufTy).Contents (Elt F) :=
  (fun a b => concatenate S2048x703x2 2 [⟨S2048x703x1, a⟩, ⟨S2048x703x1, b⟩] concatenates_S2048x703x1_S2048x703x1_S2048x703x2_d2)

/-- @main's operations 1 … 60 of 109 (the first window). -/
abbrev ops_part0 : List (HloOp τ sig (Elt F)) :=
  [ StableHlo.nullary main_c (fun i => lit0 (S703.rowMajor i)),
    StableHlo.nullary main_c_0 (fun i => lit1 (S703.rowMajor i)),
    StableHlo.nullary main_c_1 (constantI S_ 32 0#32),
    StableHlo.unary main_c_1 main_v0 (broadcastInDim S2048x39 ![] bcast_S_S2048x39 : (⟨S_, .i32⟩ : BufTy).Contents (Elt F) → (⟨S2048x39, .i32⟩ : BufTy).Contents (Elt F)),
    StableHlo.binary main_arg0 main_v0 main_v1 (cmpi .slt : (⟨S2048x39, .i32⟩ : BufTy).Contents (Elt F) → (⟨S2048x39, .i32⟩ : BufTy).Contents (Elt F) → (⟨S2048x39, .i1⟩ : BufTy).Contents (Elt F)),
    StableHlo.nullary main_c_2 (constantI S_ 32 100000#32),
    StableHlo.unary main_c_2 main_v2 (broadcastInDim S2048x39 ![] bcast_S_S2048x39 : (⟨S_, .i32⟩ : BufTy).Contents (Elt F) → (⟨S2048x39, .i32⟩ : BufTy).Contents (Elt F)),
    StableHlo.binary main_arg0 main_v2 main_v3 (addi : (⟨S2048x39, .i32⟩ : BufTy).Contents (Elt F) → (⟨S2048x39, .i32⟩ : BufTy).Contents (Elt F) → (⟨S2048x39, .i32⟩ : BufTy).Contents (Elt F)),
    StableHlo.ternary main_v1 main_v3 main_arg0 main_v4 (select : (⟨S2048x39, .i1⟩ : BufTy).Contents (Elt F) → (⟨S2048x39, .i32⟩ : BufTy).Contents (Elt F) → (⟨S2048x39, .i32⟩ : BufTy).Contents (Elt F) → (⟨S2048x39, .i32⟩ : BufTy).Contents (Elt F)),
    StableHlo.unary main_v4 main_v5 (broadcastInDim S2048x39x1 ![0, 1] bcast_S2048x39_S2048x39x1_0_1 : (⟨S2048x39, .i32⟩ : BufTy).Contents (Elt F) → (⟨S2048x39x1, .i32⟩ : BufTy).Contents (Elt F)),
    StableHlo.binary main_arg3 main_v5 main_v6 ((fun x i => Host.gather gather_S100000x1_S2048x39x1_S2048x39x1_2_0_n_n_0_2_11 x i) : (⟨S100000x1, .f32⟩ : BufTy).Contents (Elt F) → (⟨S2048x39x1, .i32⟩ : BufTy).Contents (Elt F) → (⟨S2048x39x1, .f32⟩ : BufTy).Contents (Elt F)),
    StableHlo.reshape main_v6 main_v7 rfl shapeCasts_S2048x39x1_S2048x39,
    StableHlo.binary main_v7 main_arg1 main_v8 (mulf : (⟨S2048x39, .f32⟩ : BufTy).Contents (Elt F) → (⟨S2048x39, .f32⟩ : BufTy).Contents (Elt F) → (⟨S2048x39, .f32⟩ : BufTy).Contents (Elt F)),
    StableHlo.nullary main_cst (constant S_ .f32 0x00000000#32),
    StableHlo.binary main_v8 main_cst main_v9 ((fun x v => Host.reduceAdd x v reducesTo_S2048x39_S2048_d1 h_S_) : (⟨S2048x39, .f32⟩ : BufTy).Contents (Elt F) → (⟨S_, .f32⟩ : BufTy).Contents (Elt F) → (⟨S2048, .f32⟩ : BufTy).Contents (Elt F)),
    StableHlo.unary main_c main_v10 (broadcastInDim S1x703 ![1] bcast_S703_S1x703_1 : (⟨S703, .i32⟩ : BufTy).Contents (Elt F) → (⟨S1x703, .i32⟩ : BufTy).Contents (Elt F)),
    StableHlo.nullary main_c_3 (constantI S_ 32 0#32),
    StableHlo.unary main_c_3 main_v11 (broadcastInDim S703 ![] bcast_S_S703 : (⟨S_, .i32⟩ : BufTy).Contents (Elt F) → (⟨S703, .i32⟩ : BufTy).Contents (Elt F)),
    StableHlo.binary main_c_0 main_v11 main_v12 (cmpi .slt : (⟨S703, .i32⟩ : BufTy).Contents (Elt F) → (⟨S703, .i32⟩ : BufTy).Contents (Elt F) → (⟨S703, .i1⟩ : BufTy).Contents (Elt F)),
    StableHlo.nullary main_c_4 (constantI S_ 32 39#32),
    StableHlo.unary main_c_4 main_v13 (broadcastInDim S703 ![] bcast_S_S703 : (⟨S_, .i32⟩ : BufTy).Contents (Elt F) → (⟨S703, .i32⟩ : BufTy).Contents (Elt F)),
    StableHlo.binary main_c_0 main_v13 main_v14 (addi : (⟨S703, .i32⟩ : BufTy).Contents (Elt F) → (⟨S703, .i32⟩ : BufTy).Contents (Elt F) → (⟨S703, .i32⟩ : BufTy).Contents (Elt F)),
    StableHlo.ternary main_v12 main_v14 main_c_0 main_v15 (select : (⟨S703, .i1⟩ : BufTy).Contents (Elt F) → (⟨S703, .i32⟩ : BufTy).Contents (Elt F) → (⟨S703, .i32⟩ : BufTy).Contents (Elt F) → (⟨S703, .i32⟩ : BufTy).Contents (Elt F)),
    StableHlo.unary main_v15 main_v16 (broadcastInDim S703x1 ![0] bcast_S703_S703x1_0 : (⟨S703, .i32⟩ : BufTy).Contents (Elt F) → (⟨S703x1, .i32⟩ : BufTy).Contents (Elt F)),
    StableHlo.binary main_arg0 main_v16 main_v17 ((fun x i => Host.gather gather_S2048x39_S703x1_S2048x703_0_1_n_n_1_1_20481 x i) : (⟨S2048x39, .i32⟩ : BufTy).Contents (Elt F) → (⟨S703x1, .i32⟩ : BufTy).Contents (Elt F) → (⟨S2048x703, .i32⟩ : BufTy).Contents (Elt F)),
    StableHlo.nullary main_c_5 (constantI S_ 32 0#32),
    StableHlo.unary main_c_5 main_v18 (broadcastInDim S1x703 ![] bcast_S_S1x703 : (⟨S_, .i32⟩ : BufTy).Contents (Elt F) → (⟨S1x703, .i32⟩ : BufTy).Contents (Elt F)),
    StableHlo.binary main_v10 main_v18 main_v19 (cmpi .slt : (⟨S1x703, .i32⟩ : BufTy).Contents (Elt F) → (⟨S1x703, .i32⟩ : BufTy).Contents (Elt F) → (⟨S1x703, .i1⟩ : BufTy).Contents (Elt F)),
    StableHlo.nullary main_c_6 (constantI S_ 32 39#32),
    StableHlo.unary main_c_6 main_v20 (broadcastInDim S1x703 ![] bcast_S_S1x703 : (⟨S_, .i32⟩ : BufTy).Contents (Elt F) → (⟨S1x703, .i32⟩ : BufTy).Contents (Elt F)),
    StableHlo.binary main_v10 main_v20 main_v21 (addi : (⟨S1x703, .i32⟩ : BufTy).Contents (Elt F) → (⟨S1x703, .i32⟩ : BufTy).Contents (Elt F) → (⟨S1x703, .i32⟩ : BufTy).Contents (Elt F)),
    StableHlo.ternary main_v19 main_v21 main_v10 main_v22 (select : (⟨S1x703, .i1⟩ : BufTy).Contents (Elt F) → (⟨S1x703, .i32⟩ : BufTy).Contents (Elt F) → (⟨S1x703, .i32⟩ : BufTy).Contents (Elt F) → (⟨S1x703, .i32⟩ : BufTy).Contents (Elt F)),
    StableHlo.nullary main_c_7 (constantI S_ 32 0#32),
    StableHlo.unary main_c_7 main_v23 (broadcastInDim S2048x703 ![] bcast_S_S2048x703 : (⟨S_, .i32⟩ : BufTy).Contents (Elt F) → (⟨S2048x703, .i32⟩ : BufTy).Contents (Elt F)),
    StableHlo.binary main_v17 main_v23 main_v24 (cmpi .slt : (⟨S2048x703, .i32⟩ : BufTy).Contents (Elt F) → (⟨S2048x703, .i32⟩ : BufTy).Contents (Elt F) → (⟨S2048x703, .i1⟩ : BufTy).Contents (Elt F)),
    StableHlo.nullary main_c_8 (constantI S_ 32 100000#32),
    StableHlo.unary main_c_8 main_v25 (broadcastInDim S2048x703 ![] bcast_S_S2048x703 : (⟨S_, .i32⟩ : BufTy).Contents (Elt F) → (⟨S2048x703, .i32⟩ : BufTy).Contents (Elt F)),
    StableHlo.binary main_v17 main_v25 main_v26 (addi : (⟨S2048x703, .i32⟩ : BufTy).Contents (Elt F) → (⟨S2048x703, .i32⟩ : BufTy).Contents (Elt F) → (⟨S2048x703, .i32⟩ : BufTy).Contents (Elt F)),
    StableHlo.ternary main_v24 main_v26 main_v17 main_v27 (select : (⟨S2048x703, .i1⟩ : BufTy).Contents (Elt F) → (⟨S2048x703, .i32⟩ : BufTy).Contents (Elt F) → (⟨S2048x703, .i32⟩ : BufTy).Contents (Elt F) → (⟨S2048x703, .i32⟩ : BufTy).Contents (Elt F)),
    StableHlo.unary main_v22 main_v28 (broadcastInDim S2048x703 ![0, 1] bcast_S1x703_S2048x703_0_1 : (⟨S1x703, .i32⟩ : BufTy).Contents (Elt F) → (⟨S2048x703, .i32⟩ : BufTy).Contents (Elt F)),
    StableHlo.unary main_v28 main_v29 (broadcastInDim S2048x703x1 ![0, 1] bcast_S2048x703_S2048x703x1_0_1 : (⟨S2048x703, .i32⟩ : BufTy).Contents (Elt F) → (⟨S2048x703x1, .i32⟩ : BufTy).Contents (Elt F)),
    StableHlo.unary main_v27 main_v30 (broadcastInDim S2048x703x1 ![0, 1] bcast_S2048x703_S2048x703x1_0_1 : (⟨S2048x703, .i32⟩ : BufTy).Contents (Elt F) → (⟨S2048x703x1, .i32⟩ : BufTy).Contents (Elt F)),
    StableHlo.binary main_v29 main_v30 main_v31 (cat2 : (⟨S2048x703x1, .i32⟩ : BufTy).Contents (Elt F) → (⟨S2048x703x1, .i32⟩ : BufTy).Contents (Elt F) → (⟨S2048x703x2, .i32⟩ : BufTy).Contents (Elt F)),
    StableHlo.binary main_arg2 main_v31 main_v32 ((fun x i => Host.gather gather_S39x100000x10_S2048x703x2_S2048x703x10_2_01_n_n_01_2_1110 x i) : (⟨S39x100000x10, .f32⟩ : BufTy).Contents (Elt F) → (⟨S2048x703x2, .i32⟩ : BufTy).Contents (Elt F) → (⟨S2048x703x10, .f32⟩ : BufTy).Contents (Elt F)),
    StableHlo.nullary main_c_9 (constantI S_ 32 0#32),
    StableHlo.unary main_c_9 main_v33 (broadcastInDim S703 ![] bcast_S_S703 : (⟨S_, .i32⟩ : BufTy).Contents (Elt F) → (⟨S703, .i32⟩ : BufTy).Contents (Elt F)),
    StableHlo.binary main_c_0 main_v33 main_v34 (cmpi .slt : (⟨S703, .i32⟩ : BufTy).Contents (Elt F) → (⟨S703, .i32⟩ : BufTy).Contents (Elt F) → (⟨S703, .i1⟩ : BufTy).Contents (Elt F)),
    StableHlo.nullary main_c_10 (constantI S_ 32 39#32),
    StableHlo.unary main_c_10 main_v35 (broadcastInDim S703 ![] bcast_S_S703 : (⟨S_, .i32⟩ : BufTy).Contents (Elt F) → (⟨S703, .i32⟩ : BufTy).Contents (Elt F)),
    StableHlo.binary main_c_0 main_v35 main_v36 (addi : (⟨S703, .i32⟩ : BufTy).Contents (Elt F) → (⟨S703, .i32⟩ : BufTy).Contents (Elt F) → (⟨S703, .i32⟩ : BufTy).Contents (Elt F)),
    StableHlo.ternary main_v34 main_v36 main_c_0 main_v37 (select : (⟨S703, .i1⟩ : BufTy).Contents (Elt F) → (⟨S703, .i32⟩ : BufTy).Contents (Elt F) → (⟨S703, .i32⟩ : BufTy).Contents (Elt F) → (⟨S703, .i32⟩ : BufTy).Contents (Elt F)),
    StableHlo.unary main_v37 main_v38 (broadcastInDim S703x1 ![0] bcast_S703_S703x1_0 : (⟨S703, .i32⟩ : BufTy).Contents (Elt F) → (⟨S703x1, .i32⟩ : BufTy).Contents (Elt F)),
    StableHlo.binary main_arg1 main_v38 main_v39 ((fun x i => Host.gather gather_S2048x39_S703x1_S2048x703_0_1_n_n_1_1_20481 x i) : (⟨S2048x39, .f32⟩ : BufTy).Contents (Elt F) → (⟨S703x1, .i32⟩ : BufTy).Contents (Elt F) → (⟨S2048x703, .f32⟩ : BufTy).Contents (Elt F)),
    StableHlo.unary main_v39 main_v40 (broadcastInDim S2048x703x1 ![0, 1] bcast_S2048x703_S2048x703x1_0_1 : (⟨S2048x703, .f32⟩ : BufTy).Contents (Elt F) → (⟨S2048x703x1, .f32⟩ : BufTy).Contents (Elt F)),
    StableHlo.unary main_v40 main_v41 (broadcastInDim S2048x703x10 ![0, 1, 2] bcast_S2048x703x1_S2048x703x10_0_1_2 : (⟨S2048x703x1, .f32⟩ : BufTy).Contents (Elt F) → (⟨S2048x703x10, .f32⟩ : BufTy).Contents (Elt F)),
    StableHlo.binary main_v32 main_v41 main_v42 (mulf : (⟨S2048x703x10, .f32⟩ : BufTy).Contents (Elt F) → (⟨S2048x703x10, .f32⟩ : BufTy).Contents (Elt F) → (⟨S2048x703x10, .f32⟩ : BufTy).Contents (Elt F)),
    StableHlo.unary main_c_0 main_v43 (broadcastInDim S1x703 ![1] bcast_S703_S1x703_1 : (⟨S703, .i32⟩ : BufTy).Contents (Elt F) → (⟨S1x703, .i32⟩ : BufTy).Contents (Elt F)),
    StableHlo.nullary main_c_11 (constantI S_ 32 0#32),
    StableHlo.unary main_c_11 main_v44 (broadcastInDim S703 ![] bcast_S_S703 : (⟨S_, .i32⟩ : BufTy).Contents (Elt F) → (⟨S703, .i32⟩ : BufTy).Contents (Elt F)),
    StableHlo.binary main_c main_v44 main_v45 (cmpi .slt : (⟨S703, .i32⟩ : BufTy).Contents (Elt F) → (⟨S703, .i32⟩ : BufTy).Contents (Elt F) → (⟨S703, .i1⟩ : BufTy).Contents (Elt F)) ]

/-- @main's operations 61 … 109 of 109 (the second window). -/
abbrev ops_part1 : List (HloOp τ sig (Elt F)) :=
  [ StableHlo.nullary main_c_12 (constantI S_ 32 39#32),
    StableHlo.unary main_c_12 main_v46 (broadcastInDim S703 ![] bcast_S_S703 : (⟨S_, .i32⟩ : BufTy).Contents (Elt F) → (⟨S703, .i32⟩ : BufTy).Contents (Elt F)),
    StableHlo.binary main_c main_v46 main_v47 (addi : (⟨S703, .i32⟩ : BufTy).Contents (Elt F) → (⟨S703, .i32⟩ : BufTy).Contents (Elt F) → (⟨S703, .i32⟩ : BufTy).Contents (Elt F)),
    StableHlo.ternary main_v45 main_v47 main_c main_v48 (select : (⟨S703, .i1⟩ : BufTy).Contents (Elt F) → (⟨S703, .i32⟩ : BufTy).Contents (Elt F) → (⟨S703, .i32⟩ : BufTy).Contents (Elt F) → (⟨S703, .i32⟩ : BufTy).Contents (Elt F)),
    StableHlo.unary main_v48 main_v49 (broadcastInDim S703x1 ![0] bcast_S703_S703x1_0 : (⟨S703, .i32⟩ : BufTy).Contents (Elt F) → (⟨S703x1, .i32⟩ : BufTy).Contents (Elt F)),
    StableHlo.binary main_arg0 main_v49 main_v50 ((fun x i => Host.gather gather_S2048x39_S703x1_S2048x703_0_1_n_n_1_1_20481 x i) : (⟨S2048x39, .i32⟩ : BufTy).Contents (Elt F) → (⟨S703x1, .i32⟩ : BufTy).Contents (Elt F) → (⟨S2048x703, .i32⟩ : BufTy).Contents (Elt F)),
    StableHlo.nullary main_c_13 (constantI S_ 32 0#32),
    StableHlo.unary main_c_13 main_v51 (broadcastInDim S1x703 ![] bcast_S_S1x703 : (⟨S_, .i32⟩ : BufTy).Contents (Elt F) → (⟨S1x703, .i32⟩ : BufTy).Contents (Elt F)),
    StableHlo.binary main_v43 main_v51 main_v52 (cmpi .slt : (⟨S1x703, .i32⟩ : BufTy).Contents (Elt F) → (⟨S1x703, .i32⟩ : BufTy).Contents (Elt F) → (⟨S1x703, .i1⟩ : BufTy).Contents (Elt F)),
    StableHlo.nullary main_c_14 (constantI S_ 32 39#32),
    StableHlo.unary main_c_14 main_v53 (broadcastInDim S1x703 ![] bcast_S_S1x703 : (⟨S_, .i32⟩ : BufTy).Contents (Elt F) → (⟨S1x703, .i32⟩ : BufTy).Contents (Elt F)),
    StableHlo.binary main_v43 main_v53 main_v54 (addi : (⟨S1x703, .i32⟩ : BufTy).Contents (Elt F) → (⟨S1x703, .i32⟩ : BufTy).Contents (Elt F) → (⟨S1x703, .i32⟩ : BufTy).Contents (Elt F)),
    StableHlo.ternary main_v52 main_v54 main_v43 main_v55 (select : (⟨S1x703, .i1⟩ : BufTy).Contents (Elt F) → (⟨S1x703, .i32⟩ : BufTy).Contents (Elt F) → (⟨S1x703, .i32⟩ : BufTy).Contents (Elt F) → (⟨S1x703, .i32⟩ : BufTy).Contents (Elt F)),
    StableHlo.nullary main_c_15 (constantI S_ 32 0#32),
    StableHlo.unary main_c_15 main_v56 (broadcastInDim S2048x703 ![] bcast_S_S2048x703 : (⟨S_, .i32⟩ : BufTy).Contents (Elt F) → (⟨S2048x703, .i32⟩ : BufTy).Contents (Elt F)),
    StableHlo.binary main_v50 main_v56 main_v57 (cmpi .slt : (⟨S2048x703, .i32⟩ : BufTy).Contents (Elt F) → (⟨S2048x703, .i32⟩ : BufTy).Contents (Elt F) → (⟨S2048x703, .i1⟩ : BufTy).Contents (Elt F)),
    StableHlo.nullary main_c_16 (constantI S_ 32 100000#32),
    StableHlo.unary main_c_16 main_v58 (broadcastInDim S2048x703 ![] bcast_S_S2048x703 : (⟨S_, .i32⟩ : BufTy).Contents (Elt F) → (⟨S2048x703, .i32⟩ : BufTy).Contents (Elt F)),
    StableHlo.binary main_v50 main_v58 main_v59 (addi : (⟨S2048x703, .i32⟩ : BufTy).Contents (Elt F) → (⟨S2048x703, .i32⟩ : BufTy).Contents (Elt F) → (⟨S2048x703, .i32⟩ : BufTy).Contents (Elt F)),
    StableHlo.ternary main_v57 main_v59 main_v50 main_v60 (select : (⟨S2048x703, .i1⟩ : BufTy).Contents (Elt F) → (⟨S2048x703, .i32⟩ : BufTy).Contents (Elt F) → (⟨S2048x703, .i32⟩ : BufTy).Contents (Elt F) → (⟨S2048x703, .i32⟩ : BufTy).Contents (Elt F)),
    StableHlo.unary main_v55 main_v61 (broadcastInDim S2048x703 ![0, 1] bcast_S1x703_S2048x703_0_1 : (⟨S1x703, .i32⟩ : BufTy).Contents (Elt F) → (⟨S2048x703, .i32⟩ : BufTy).Contents (Elt F)),
    StableHlo.unary main_v61 main_v62 (broadcastInDim S2048x703x1 ![0, 1] bcast_S2048x703_S2048x703x1_0_1 : (⟨S2048x703, .i32⟩ : BufTy).Contents (Elt F) → (⟨S2048x703x1, .i32⟩ : BufTy).Contents (Elt F)),
    StableHlo.unary main_v60 main_v63 (broadcastInDim S2048x703x1 ![0, 1] bcast_S2048x703_S2048x703x1_0_1 : (⟨S2048x703, .i32⟩ : BufTy).Contents (Elt F) → (⟨S2048x703x1, .i32⟩ : BufTy).Contents (Elt F)),
    StableHlo.binary main_v62 main_v63 main_v64 (cat2 : (⟨S2048x703x1, .i32⟩ : BufTy).Contents (Elt F) → (⟨S2048x703x1, .i32⟩ : BufTy).Contents (Elt F) → (⟨S2048x703x2, .i32⟩ : BufTy).Contents (Elt F)),
    StableHlo.binary main_arg2 main_v64 main_v65 ((fun x i => Host.gather gather_S39x100000x10_S2048x703x2_S2048x703x10_2_01_n_n_01_2_1110 x i) : (⟨S39x100000x10, .f32⟩ : BufTy).Contents (Elt F) → (⟨S2048x703x2, .i32⟩ : BufTy).Contents (Elt F) → (⟨S2048x703x10, .f32⟩ : BufTy).Contents (Elt F)),
    StableHlo.nullary main_c_17 (constantI S_ 32 0#32),
    StableHlo.unary main_c_17 main_v66 (broadcastInDim S703 ![] bcast_S_S703 : (⟨S_, .i32⟩ : BufTy).Contents (Elt F) → (⟨S703, .i32⟩ : BufTy).Contents (Elt F)),
    StableHlo.binary main_c main_v66 main_v67 (cmpi .slt : (⟨S703, .i32⟩ : BufTy).Contents (Elt F) → (⟨S703, .i32⟩ : BufTy).Contents (Elt F) → (⟨S703, .i1⟩ : BufTy).Contents (Elt F)),
    StableHlo.nullary main_c_18 (constantI S_ 32 39#32),
    StableHlo.unary main_c_18 main_v68 (broadcastInDim S703 ![] bcast_S_S703 : (⟨S_, .i32⟩ : BufTy).Contents (Elt F) → (⟨S703, .i32⟩ : BufTy).Contents (Elt F)),
    StableHlo.binary main_c main_v68 main_v69 (addi : (⟨S703, .i32⟩ : BufTy).Contents (Elt F) → (⟨S703, .i32⟩ : BufTy).Contents (Elt F) → (⟨S703, .i32⟩ : BufTy).Contents (Elt F)),
    StableHlo.ternary main_v67 main_v69 main_c main_v70 (select : (⟨S703, .i1⟩ : BufTy).Contents (Elt F) → (⟨S703, .i32⟩ : BufTy).Contents (Elt F) → (⟨S703, .i32⟩ : BufTy).Contents (Elt F) → (⟨S703, .i32⟩ : BufTy).Contents (Elt F)),
    StableHlo.unary main_v70 main_v71 (broadcastInDim S703x1 ![0] bcast_S703_S703x1_0 : (⟨S703, .i32⟩ : BufTy).Contents (Elt F) → (⟨S703x1, .i32⟩ : BufTy).Contents (Elt F)),
    StableHlo.binary main_arg1 main_v71 main_v72 ((fun x i => Host.gather gather_S2048x39_S703x1_S2048x703_0_1_n_n_1_1_20481 x i) : (⟨S2048x39, .f32⟩ : BufTy).Contents (Elt F) → (⟨S703x1, .i32⟩ : BufTy).Contents (Elt F) → (⟨S2048x703, .f32⟩ : BufTy).Contents (Elt F)),
    StableHlo.unary main_v72 main_v73 (broadcastInDim S2048x703x1 ![0, 1] bcast_S2048x703_S2048x703x1_0_1 : (⟨S2048x703, .f32⟩ : BufTy).Contents (Elt F) → (⟨S2048x703x1, .f32⟩ : BufTy).Contents (Elt F)),
    StableHlo.unary main_v73 main_v74 (broadcastInDim S2048x703x10 ![0, 1, 2] bcast_S2048x703x1_S2048x703x10_0_1_2 : (⟨S2048x703x1, .f32⟩ : BufTy).Contents (Elt F) → (⟨S2048x703x10, .f32⟩ : BufTy).Contents (Elt F)),
    StableHlo.binary main_v65 main_v74 main_v75 (mulf : (⟨S2048x703x10, .f32⟩ : BufTy).Contents (Elt F) → (⟨S2048x703x10, .f32⟩ : BufTy).Contents (Elt F) → (⟨S2048x703x10, .f32⟩ : BufTy).Contents (Elt F)),
    StableHlo.binary main_v42 main_v75 main_v76 (mulf : (⟨S2048x703x10, .f32⟩ : BufTy).Contents (Elt F) → (⟨S2048x703x10, .f32⟩ : BufTy).Contents (Elt F) → (⟨S2048x703x10, .f32⟩ : BufTy).Contents (Elt F)),
    StableHlo.nullary main_cst_19 (constant S_ .f32 0x00000000#32),
    StableHlo.binary main_v76 main_cst_19 main_v77 ((fun x v => Host.reduceAdd x v reducesTo_S2048x703x10_S2048_d1_2 h_S_) : (⟨S2048x703x10, .f32⟩ : BufTy).Contents (Elt F) → (⟨S_, .f32⟩ : BufTy).Contents (Elt F) → (⟨S2048, .f32⟩ : BufTy).Contents (Elt F)),
    StableHlo.binary main_v9 main_v77 main_v78 (addf : (⟨S2048, .f32⟩ : BufTy).Contents (Elt F) → (⟨S2048, .f32⟩ : BufTy).Contents (Elt F) → (⟨S2048, .f32⟩ : BufTy).Contents (Elt F)),
    StableHlo.unary main_v78 main_v79 (Host.negf : (⟨S2048, .f32⟩ : BufTy).Contents (Elt F) → (⟨S2048, .f32⟩ : BufTy).Contents (Elt F)),
    StableHlo.unary main_v79 main_v80 (Host.exp : (⟨S2048, .f32⟩ : BufTy).Contents (Elt F) → (⟨S2048, .f32⟩ : BufTy).Contents (Elt F)),
    StableHlo.nullary main_cst_20 (constant S_ .f32 0x3F800000#32),
    StableHlo.unary main_cst_20 main_v81 (broadcastInDim S2048 ![] bcast_S_S2048 : (⟨S_, .f32⟩ : BufTy).Contents (Elt F) → (⟨S2048, .f32⟩ : BufTy).Contents (Elt F)),
    StableHlo.binary main_v81 main_v80 main_v82 (addf : (⟨S2048, .f32⟩ : BufTy).Contents (Elt F) → (⟨S2048, .f32⟩ : BufTy).Contents (Elt F) → (⟨S2048, .f32⟩ : BufTy).Contents (Elt F)),
    StableHlo.nullary main_cst_21 (constant S_ .f32 0x3F800000#32),
    StableHlo.unary main_cst_21 main_v83 (broadcastInDim S2048 ![] bcast_S_S2048 : (⟨S_, .f32⟩ : BufTy).Contents (Elt F) → (⟨S2048, .f32⟩ : BufTy).Contents (Elt F)),
    StableHlo.binary main_v83 main_v82 main_v84 (Host.divf : (⟨S2048, .f32⟩ : BufTy).Contents (Elt F) → (⟨S2048, .f32⟩ : BufTy).Contents (Elt F) → (⟨S2048, .f32⟩ : BufTy).Contents (Elt F)) ]

/-- @main's 109 operations, in order. -/
abbrev ops : List (HloOp τ sig (Elt F)) :=
  ops_part0 ++ ops_part1

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨nullary_bufs_sub .., nullary_bufs_sub .., nullary_bufs_sub .., unary_bufs_sub .., binary_bufs_sub .., nullary_bufs_sub .., unary_bufs_sub .., binary_bufs_sub .., ternary_bufs_sub .., unary_bufs_sub .., binary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., unary_bufs_sub .., nullary_bufs_sub .., unary_bufs_sub .., binary_bufs_sub ..⟩
set_option maxRecDepth 8192 in
theorem ops_part1_sub : (ops_part1 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub .., nullary_bufs_sub .., binary_bufs_sub .., binary_bufs_sub .., unary_bufs_sub .., unary_bufs_sub .., nullary_bufs_sub .., unary_bufs_sub .., binary_bufs_sub .., nullary_bufs_sub .., unary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops_part0_sub op h, List.forall_iff_forall_mem.mp ops_part1_sub op h]

/-- The contents after two lines run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxRecDepth 8192 in
set_option maxHeartbeats 4000000 in
/-- The result buffer after the 109 operations: each operation's result read at its own buffer, outermost first, leaves the
    composed term of the argument buffers, which is `Stages.RefTerm` with its stages unfolded. -/
theorem val_main_v84 (V : Valuation τ sig (Elt F)) :
    after ops V (Proc.devRef .tc main_v84)
      = Stages.RefTerm (V (Proc.devRef .tc main_arg0)) (V (Proc.devRef .tc main_arg1)) (V (Proc.devRef .tc main_arg2)) (V (Proc.devRef .tc main_arg3)) := by
  simp only [ops, after_app]
  after_results_simp
  rfl

set_option maxRecDepth 8192 in
set_option maxHeartbeats 4000000 in
/-- No operation writes the argument buffer `main_arg0`: it keeps its contents. -/
theorem val_main_arg0 (V : Valuation τ sig (Elt F)) :
    after ops V (Proc.devRef .tc main_arg0) = V (Proc.devRef .tc main_arg0) := by
  simp only [ops, after_app]
  after_results_simp

set_option maxRecDepth 8192 in
set_option maxHeartbeats 4000000 in
/-- No operation writes the argument buffer `main_arg1`: it keeps its contents. -/
theorem val_main_arg1 (V : Valuation τ sig (Elt F)) :
    after ops V (Proc.devRef .tc main_arg1) = V (Proc.devRef .tc main_arg1) := by
  simp only [ops, after_app]
  after_results_simp

set_option maxRecDepth 8192 in
set_option maxHeartbeats 4000000 in
/-- No operation writes the argument buffer `main_arg2`: it keeps its contents. -/
theorem val_main_arg2 (V : Valuation τ sig (Elt F)) :
    after ops V (Proc.devRef .tc main_arg2) = V (Proc.devRef .tc main_arg2) := by
  simp only [ops, after_app]
  after_results_simp

set_option maxRecDepth 8192 in
set_option maxHeartbeats 4000000 in
/-- No operation writes the argument buffer `main_arg3`: it keeps its contents. -/
theorem val_main_arg3 (V : Valuation τ sig (Elt F)) :
    after ops V (Proc.devRef .tc main_arg3) = V (Proc.devRef .tc main_arg3) := by
  simp only [ops, after_app]
  after_results_simp

/-- On every device, for any float values, from any memory with zero counters: every weakly fair execution of
    @main terminates with the result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v84)
          = Cert.ReferenceIdeal.Stages.RefTerm (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v84).trans (val_main_v84 (launchContents m c)),
      (h c main_arg0).trans (val_main_arg0 (launchContents m c)),
      (h c main_arg1).trans (val_main_arg1 (launchContents m c)),
      (h c main_arg2).trans (val_main_arg2 (launchContents m c)),
      (h c main_arg3).trans (val_main_arg3 (launchContents m c))⟩)
    (run_seq scopedRefs_eq scopedSems_eq defs main (fun _ => ops) main_eq (fun _ => ops_sub) m ρ)

end Cert.ReferenceIdeal.RefRun

end
-- ==== Proof.RefRead.lean ====
/-
  The reference's value read index by index over the extended reals: the index rule (a negative index counts from
  the end of the axis) at an index, the column gather and the (table, row) gather at an index, one side of the
  pairwise product, the sum over pairs and entries, the logistic tail; together, the reference's result is the
  logistic tail of the first-order term and the second-order sum over the listed pairs.
-/
import proofs.«108280_j73169062855073_1_alg».proof.Proof.RefStages
import proofs.«108280_j73169062855073_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.RefRead

open Cert.ReferenceIdeal Cert.ReferenceIdeal.Facts₀ Cert.ReferenceIdeal.Stages Idealize.ShloMosaic Idealize.ShloMosaic.ValueIdx

/-- The index rule (a negative index counts from the end of the axis) on a table `[703]`, at an index. -/
theorem nrmT_apply (k : IVec S703 32) (p : Fin 703) : nrmT k (ix1 p) = Cert.Spec.nrm 39#32 (k (ix1 p)) := rfl

/-- The index rule (a negative index counts from the end of the axis) on a table laid out `[1, 703]`, at an index. -/
theorem nrmR_apply (k : IVec S1x703 32) (p : Fin 703) : nrmR k (ix2 0 p) = Cert.Spec.nrm 39#32 (k (ix2 0 p)) := rfl

/-- The index rule (a negative index counts from the end of the axis) against the 100000 rows, at an index. -/
theorem nrmBP_apply (x : IVec S2048x703 32) (b : Fin 2048) (p : Fin 703) :
    nrmBP x (ix2 b p) = Cert.Spec.nrm 100000#32 (x (ix2 b p)) := rfl

/-- The logistic tail is the specification's. -/
theorem tail_eq (x y : FVec Ideal S2048 .f32) : Stages.tail (F := Ideal) x y = Cert.Spec.sigTail x y := rfl

local notation "dC" => gather_S2048x39_S703x1_S2048x703_0_1_n_n_1_1_20481

/-- A column gathered out of an array `[2048, 39]`, at an index: the array at the same sample and at the column the
    table names (normalised, read signed, clamped). -/
theorem colOf_apply {α : Type} (x : S2048x39.Idx → α) (k : IVec S703 32) (b : Fin 2048) (p : Fin 703) :
    colOf x k (ix2 b p) = x (ix2 b (Cert.Spec.tab k p)) := by
  unfold colOf Host.gather
  refine congrArg x ?_
  funext a
  refine Fin.ext ?_
  match a with
  | ⟨0, _⟩ =>
    show GatherDims.start dC (ix2 b p) _ (0 : Fin 2) + GatherDims.batchCoord dC (ix2 b p) (0 : Fin 2) + GatherDims.offCoord dC (ix2 b p) (0 : Fin 2) = b.val
    rw [GatherDims.batchCoord_eq_zero _ _ _ List.not_mem_nil]
    unfold GatherDims.start
    rw [dif_neg (by decide)]
    unfold GatherDims.offCoord
    rw [dif_pos ((GatherDims.mem_sKept _ _).2 ⟨by decide, List.not_mem_nil⟩)]
    simp only [Nat.zero_add, Nat.add_zero]
    rfl
  | ⟨1, _⟩ =>
    show GatherDims.start dC (ix2 b p) _ (1 : Fin 2) + GatherDims.batchCoord dC (ix2 b p) (1 : Fin 2) + GatherDims.offCoord dC (ix2 b p) (1 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ GatherDims.startIndexMap dC from List.mem_singleton.mpr rfl)]
    have hsi : GatherDims.siIdx dC (ix2 b p) ⟨List.idxOf (1 : Fin 2) (GatherDims.startIndexMap dC),
        List.idxOf_lt_length_iff.2 (List.mem_singleton.mpr rfl)⟩ = ix2 p 0 := by
      funext c; refine Fin.ext ?_
      match c with
      | ⟨0, _⟩ => rfl
      | ⟨1, _⟩ => rfl
    rw [hsi, broadcastInDim_apply _ _ _ _ (ix1 p) (fun a => by obtain rfl : a = 0 := Subsingleton.elim _ _; rfl)]
    rfl

local notation "dE" => gather_S39x100000x10_S2048x703x2_S2048x703x10_2_01_n_n_01_2_1110

/-- The rows a (table, row) index pair selects, at an index: table the first table's entry names, row the gathered
    column index names (each normalised, read signed, clamped), entry `e`. -/
theorem embRows_apply {F : FTy → Type} [FloatOps F] (a2 : FVec F S39x100000x10 .f32) (k0 : IVec S703 32)
    (cols : IVec S2048x703 32) (b : Fin 2048) (p : Fin 703) (e : Fin 10) :
    embRows a2 k0 cols (ix3 b p e) = a2 (ix3 (Cert.Spec.tab k0 p) (Cert.Spec.rowOf (cols (ix2 b p))) e) := by
  unfold embRows Host.gather
  refine congrArg a2 ?_
  funext a
  refine Fin.ext ?_
  match a with
  | ⟨0, _⟩ =>
    show GatherDims.start dE (ix3 b p e) _ (0 : Fin 3) + GatherDims.batchCoord dE (ix3 b p e) (0 : Fin 3)
      + GatherDims.offCoord dE (ix3 b p e) (0 : Fin 3) = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 3) ∈ GatherDims.startIndexMap dE by decide)]
    have hsi : GatherDims.siIdx dE (ix3 b p e) ⟨List.idxOf (0 : Fin 3) (GatherDims.startIndexMap dE),
        List.idxOf_lt_length_iff.2 (by decide)⟩ = ix3 b p 0 := by
      funext c; refine Fin.ext ?_
      match c with
      | ⟨0, _⟩ => rfl
      | ⟨1, _⟩ => rfl
      | ⟨2, _⟩ => rfl
    rw [hsi, concatenate_pair_apply_left (t := S2048x703x2) (s₁ := S2048x703x1) (s₂ := S2048x703x1) (2 : Fin 3) _ _ _
        (ix3 b p (0 : Fin 2)) rfl (ix3 b p (0 : Fin 1)) (fun c => match c with | ⟨0, _⟩ => rfl | ⟨1, _⟩ => rfl | ⟨2, _⟩ => rfl),
      broadcastInDim_apply _ _ _ _ (ix2 b p) (fun a => match a with | ⟨0, _⟩ => rfl | ⟨1, _⟩ => rfl),
      broadcastInDim_apply _ _ _ _ (ix2 0 p) (fun a => match a with | ⟨0, _⟩ => rfl | ⟨1, _⟩ => rfl),
      nrmR_apply,
      broadcastInDim_apply _ _ _ _ (ix1 p) (fun a => by obtain rfl : a = 0 := Subsingleton.elim _ _; rfl)]
    rfl
  | ⟨1, _⟩ =>
    show GatherDims.start dE (ix3 b p e) _ (1 : Fin 3) + GatherDims.batchCoord dE (ix3 b p e) (1 : Fin 3)
      + GatherDims.offCoord dE (ix3 b p e) (1 : Fin 3) = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 3) ∈ GatherDims.startIndexMap dE by decide)]
    have hsi : GatherDims.siIdx dE (ix3 b p e) ⟨List.idxOf (1 : Fin 3) (GatherDims.startIndexMap dE),
        List.idxOf_lt_length_iff.2 (by decide)⟩ = ix3 b p 1 := by
      funext c; refine Fin.ext ?_
      match c with
      | ⟨0, _⟩ => rfl
      | ⟨1, _⟩ => rfl
      | ⟨2, _⟩ => rfl
    rw [hsi, concatenate_pair_apply_right (t := S2048x703x2) (s₁ := S2048x703x1) (s₂ := S2048x703x1) (2 : Fin 3) _ _ _
        (ix3 b p (1 : Fin 2)) rfl rfl (ix3 b p (0 : Fin 1))
        (fun c hc => match c, hc with | ⟨0, _⟩, _ => rfl | ⟨1, _⟩, _ => rfl | ⟨2, _⟩, hc => (hc (Fin.ext rfl)).elim) rfl,
      broadcastInDim_apply _ _ _ _ (ix2 b p) (fun a => match a with | ⟨0, _⟩ => rfl | ⟨1, _⟩ => rfl),
      nrmBP_apply]
    rfl
  | ⟨2, _⟩ =>
    show GatherDims.start dE (ix3 b p e) _ (2 : Fin 3) + GatherDims.batchCoord dE (ix3 b p e) (2 : Fin 3)
      + GatherDims.offCoord dE (ix3 b p e) (2 : Fin 3) = e.val
    rw [GatherDims.batchCoord_eq_zero _ _ _ List.not_mem_nil]
    unfold GatherDims.start
    rw [dif_neg (by decide)]
    unfold GatherDims.offCoord
    rw [dif_pos ((GatherDims.mem_sKept _ _).2 ⟨by decide, List.not_mem_nil⟩)]
    simp only [Nat.zero_add, Nat.add_zero]
    rfl

/-- The indices of `[2048, 703, 10]` whose sample is `b` are `(b, p, e)` over the pairs and entries. -/
theorem ix3_of_drop (h : S2048x703x10.ReducesTo [1, 2] S2048) (b : Fin 2048) (i : S2048x703x10.Idx)
    (hi : h.drop i = ix1 b) : ix3 b (i 1 : Fin 703) (i 2 : Fin 10) = i := by
  have h0 : (i 0).val = b.val := by
    rw [← h.drop_apply_val_of_eq i 0 0, hi]
  funext a; refine Fin.ext ?_
  match a with
  | ⟨0, _⟩ => exact h0.symm
  | ⟨1, _⟩ => rfl
  | ⟨2, _⟩ => rfl

/-- The sum over the two trailing axes, at a sample: the initial value plus the double sum over pairs and entries. -/
theorem sum_pairs_entries (h : S2048x703x10.ReducesTo [1, 2] S2048) (x : S2048x703x10.Idx → EReal) (init : EReal)
    (b : Fin 2048) :
    Ideal.hostReduceAdd h x init (ix1 b) = init + ∑ p : Fin 703, ∑ e : Fin 10, x (ix3 b p e) := by
  unfold Ideal.hostReduceAdd
  refine congrArg (init + ·) ?_
  rw [← Finset.sum_product' (Finset.univ : Finset (Fin 703)) (Finset.univ : Finset (Fin 10)) (fun p e => x (ix3 b p e))]
  refine Finset.sum_nbij' (fun i => ((i 1 : Fin 703), (i 2 : Fin 10))) (fun q => ix3 b q.1 q.2) ?_ ?_ ?_ ?_ ?_
  · intro i _; exact Finset.mem_product.2 ⟨Finset.mem_univ _, Finset.mem_univ _⟩
  · intro q _
    refine Finset.mem_filter.2 ⟨Finset.mem_univ _, ?_⟩
    funext a
    obtain rfl : a = 0 := Subsingleton.elim _ _
    exact Fin.ext (h.drop_apply_val_of_eq _ 0 0)
  · intro i hi; exact ix3_of_drop h b i (Finset.mem_filter.1 hi).2
  · intro q _; rfl
  · intro i hi; exact congrArg x (ix3_of_drop h b i (Finset.mem_filter.1 hi).2).symm

/-- One side of the pairwise product, at an index. -/
theorem side_apply (a0 : IVec S2048x39 32) (a1 : FVec Ideal S2048x39 .f32) (a2 : FVec Ideal S39x100000x10 .f32)
    (k0 k1 : IVec S703 32) (b : Fin 2048) (p : Fin 703) (e : Fin 10) :
    side a0 a1 a2 k0 k1 (ix3 b p e)
      = Cert.Spec.A a2 a0 b (Cert.Spec.tab k0 p) (Cert.Spec.tab k1 p) e * a1 (ix2 b (Cert.Spec.tab k1 p)) := by
  unfold side
  rw [mulf_apply, embRows_apply, colOf_apply,
    broadcastInDim_apply _ _ _ _ (ix3 b p (0 : Fin 1)) (fun a => match a with | ⟨0, _⟩ => rfl | ⟨1, _⟩ => rfl | ⟨2, _⟩ => rfl),
    broadcastInDim_apply _ _ _ _ (ix2 b p) (fun a => match a with | ⟨0, _⟩ => rfl | ⟨1, _⟩ => rfl),
    colOf_apply]
  rfl

/-- The second-order term at a sample is the specification's sum over the listed pairs. -/
theorem second_apply (a0 : IVec S2048x39 32) (a1 : FVec Ideal S2048x39 .f32) (a2 : FVec Ideal S39x100000x10 .f32)
    (b : Fin 2048) :
    second (F := Ideal) a0 a1 a2 (ix1 b)
      = Cert.Spec.secR a2 a0 a1 (Cert.Spec.tab Stages.litI) (Cert.Spec.tab Stages.litJ) b := by
  unfold second
  show Ideal.hostReduceAdd _ _ (Ideal.ofBits .f32 0x00000000#32) (ix1 b) = _
  rw [sum_pairs_entries, Ideal.ofBits_zero_f32, zero_add]
  unfold Cert.Spec.secR
  refine Finset.sum_congr rfl fun p _ => Finset.sum_congr rfl fun e _ => ?_
  rw [mulf_apply, side_apply, side_apply]

/-- THE REFERENCE'S RESULT: the logistic tail of the first-order term and the second-order sum over the listed pairs. -/
theorem RefTerm_eq (a0 : IVec S2048x39 32) (a1 : FVec Ideal S2048x39 .f32) (a2 : FVec Ideal S39x100000x10 .f32)
    (a3 : FVec Ideal S100000x1 .f32) :
    Stages.RefTerm (F := Ideal) a0 a1 a2 a3
      = Cert.Spec.sigTail (Stages.first (F := Ideal) a0 a1 a3)
          (fun j => Cert.Spec.secR a2 a0 a1 (Cert.Spec.tab Stages.litI) (Cert.Spec.tab Stages.litJ) (j 0)) := by
  have hs : second (F := Ideal) a0 a1 a2
      = fun j => Cert.Spec.secR a2 a0 a1 (Cert.Spec.tab Stages.litI) (Cert.Spec.tab Stages.litJ) (j 0) := by
    funext j
    exact (congrArg (second (F := Ideal) a0 a1 a2) (eq_ix1 j)).trans (second_apply a0 a1 a2 (j 0))
  unfold RefTerm
  rw [tail_eq, hs]

end Cert.ReferenceIdeal.RefRead

end
-- ==== Proof.KHost.lean ====
/-
  The arrays the kernel's program computes on the host before its region, each read at an index over the
  extended reals: the two gathered operands (entry e of the row that column g selects in table f, and the
  same with the two field axes exchanged), the transposed values, and the first-order term.
-/
import proofs.«108280_j73169062855073_1_alg».proof.Proof.Gen.KernelIdeal.Frame
import proofs.«108280_j73169062855073_1_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

noncomputable section

open scoped BigOperators

namespace Cert.KernelIdeal.KHost

open Cert.KernelIdeal Cert.KernelIdeal.Facts₀ Idealize.ShloMosaic Idealize.ShloMosaic.ValueIdx

/-! ## The stages as pure terms of the argument arrays -/

section Stages
variable {F : FTy → Type} [FloatOps F]

/-- The first 38 columns of the index array. -/
def kIdxS (a0 : IVec S2048x39 32) : IVec S2048x38 32 :=
  extractStridedSlice S2048x38 ![0, 0] a0 slices_S2048x39_S2048x38_0_0

/-- The first 38 columns of the value array. -/
def kValS (a1 : FVec F S2048x39 .f32) : FVec F S2048x38 .f32 :=
  extractStridedSlice S2048x38 ![0, 0] a1 slices_S2048x39_S2048x38_0_0

/-- The first 38 embedding tables. -/
def kEmbS (a2 : FVec F S39x100000x10 .f32) : FVec F S38x100000x10 .f32 :=
  extractStridedSlice S38x100000x10 ![0, 0, 0] a2 slices_S39x100000x10_S38x100000x10_0_0_0

/-- The transposed values: the first 38 columns of the value array, fields first. -/
def kV41 (a1 : FVec F S2048x39 .f32) : FVec F S38x2048 .f32 :=
  transpose S38x2048 [1, 0] (kValS a1) transposes_S2048x38_S38x2048_1_0

/-- The first 38 index columns, fields first, then the index rule against the 100000 rows (a negative index counts from the end). -/
def kIdxT (a0 : IVec S2048x39 32) : IVec S38x2048 32 :=
  select
    (cmpi .slt (transpose S38x2048 [1, 0] (kIdxS a0) transposes_S2048x38_S38x2048_1_0)
      (broadcastInDim S38x2048 ![] bcast_S_S38x2048 (constantI S_ 32 0#32)))
    (addi (transpose S38x2048 [1, 0] (kIdxS a0) transposes_S2048x38_S38x2048_1_0)
      (broadcastInDim S38x2048 ![] bcast_S_S38x2048 (constantI S_ 32 100000#32)))
    (transpose S38x2048 [1, 0] (kIdxS a0) transposes_S2048x38_S38x2048_1_0)

/-- The first 38 tables, entries before rows. -/
def kTab (a2 : FVec F S39x100000x10 .f32) : FVec F S38x10x100000 .bf16 :=
  transpose S38x10x100000 [0, 2, 1] (truncf .bf16 (kEmbS a2) bitsLt_bf16_f32) transposes_S38x100000x10_S38x10x100000_0_2_1

/-- The first gathered operand: every table's rows at every column's indices. -/
def kV38 (a0 : IVec S2048x39 32) (a2 : FVec F S39x100000x10 .f32) : FVec F S38x10x38x2048 .bf16 :=
  Host.gather gather_S38x10x100000_S38x2048x1_S38x10x38x2048_01_2_n_n_2_2_38101 (kTab a2)
    (broadcastInDim S38x2048x1 ![0, 1] bcast_S38x2048_S38x2048x1_0_1 (kIdxT a0))

/-- The second gathered operand: the first with its two field axes exchanged. -/
def kV39 (a0 : IVec S2048x39 32) (a2 : FVec F S39x100000x10 .f32) : FVec F S38x10x38x2048 .bf16 :=
  transpose S38x10x38x2048 [2, 1, 0, 3] (kV38 a0 a2) transposes_S38x10x38x2048_S38x10x38x2048_2_1_0_3

/-- The first-order term: the weights at the normalised indices times the values, added up over the columns. -/
def KFirst (a0 : IVec S2048x39 32) (a1 : FVec F S2048x39 .f32) (a3 : FVec F S100000x1 .f32) : FVec F S2048 .f32 :=
  Host.reduceAdd
    (mulf
      (shapeCast S2048x39
        (Host.gather gather_S100000x1_S2048x39x1_S2048x39x1_2_0_n_n_0_2_11 a3
          (broadcastInDim S2048x39x1 ![0, 1] bcast_S2048x39_S2048x39x1_0_1
            (select (cmpi .slt a0 (broadcastInDim S2048x39 ![] bcast_S_S2048x39 (constantI S_ 32 0#32)))
              (addi a0 (broadcastInDim S2048x39 ![] bcast_S_S2048x39 (constantI S_ 32 100000#32))) a0)))
        shapeCasts_S2048x39x1_S2048x39)
      a1)
    (constant S_ .f32 0x00000000#32) reducesTo_S2048x39_S2048_d1 h_S_

end Stages

/-! ## The stages read at an index -/

section Read
variable {α : Type}

local notation "DA" => gather_S38x10x100000_S38x2048x1_S38x10x38x2048_01_2_n_n_2_2_38101

/-- The first 38 columns of an array over samples and columns, fields first, read at (g, b): the array at (b, g). -/
theorem sliceT_apply (x : S2048x39.Idx → α) (g : Fin 38) (b : Fin 2048) :
    transpose S38x2048 [1, 0] (extractStridedSlice S2048x38 ![0, 0] x slices_S2048x39_S2048x38_0_0)
      transposes_S2048x38_S38x2048_1_0 (ix2 g b) = x (ix2 b (Cert.Spec.up g)) := by
  refine (transpose_apply _ _ _ _ (ix2 b g) fun a => ?_).trans ?_
  · match a with
    | ⟨0, _⟩ => rfl
    | ⟨1, _⟩ => rfl
  · refine extractStridedSlice_apply _ _ _ _ _ fun a => ?_
    match a with
    | ⟨0, _⟩ => exact (Nat.zero_add _).symm
    | ⟨1, _⟩ => exact (Nat.zero_add _).symm

/-- The index rule against the 100000 rows, applied to a whole array, read at an index. -/
theorem nrm_apply {s : Shape} (t : IVec s 32) (h0 : S_.BroadcastsInDim s (![] : Fin 0 → Fin s.rank)) (j : s.Idx) :
    select (cmpi .slt t (broadcastInDim s ![] h0 (constantI S_ 32 0#32)))
      (addi t (broadcastInDim s ![] h0 (constantI S_ 32 100000#32))) t j = Cert.Spec.nrm 100000#32 (t j) := rfl

theorem kV41_apply (a1 : FVec Ideal S2048x39 .f32) (g : Fin 38) (b : Fin 2048) :
    kV41 a1 (ix2 g b) = a1 (ix2 b (Cert.Spec.up g)) := by
  unfold kV41 kValS
  exact sliceT_apply a1 g b

theorem kIdxT_apply (a0 : IVec S2048x39 32) (g : Fin 38) (b : Fin 2048) :
    kIdxT a0 (ix2 g b) = Cert.Spec.nrm 100000#32 (a0 (ix2 b (Cert.Spec.up g))) := by
  unfold kIdxT kIdxS
  exact (nrm_apply _ _ _).trans (congrArg _ (sliceT_apply a0 g b))

theorem kTab_apply (a2 : FVec Ideal S39x100000x10 .f32) (f : Fin 38) (e : Fin 10) (r : Fin 100000) :
    kTab a2 (ix3 f e r) = a2 (ix3 (Cert.Spec.up f) r e) := by
  unfold kTab kEmbS
  refine (transpose_apply _ _ _ _ (ix3 f r e) fun a => ?_).trans ?_
  · match a with
    | ⟨0, _⟩ => rfl
    | ⟨1, _⟩ => rfl
    | ⟨2, _⟩ => rfl
  · show extractStridedSlice S38x100000x10 ![0, 0, 0] a2 slices_S39x100000x10_S38x100000x10_0_0_0 (ix3 f r e) = _
    refine extractStridedSlice_apply _ _ _ _ _ fun a => ?_
    match a with
    | ⟨0, _⟩ => exact (Nat.zero_add _).symm
    | ⟨1, _⟩ => exact (Nat.zero_add _).symm
    | ⟨2, _⟩ => exact (Nat.zero_add _).symm

/-- The cross-field gather read at (f, e, g, b): the operand at (f, e, the start index at (g, b) read signed and
    clamped into the rows). -/
theorem gatherA_apply (x : S38x10x100000.Idx → α) (idx : IVec S38x2048x1 32) (f : Fin 38) (e : Fin 10) (g : Fin 38) (b : Fin 2048) :
    Host.gather DA x idx (ix4 f e g b)
      = x (ix3 f e ⟨min (idx (ix3 g b (0 : Fin 1))).toInt.toNat 99999, by omega⟩) := by
  unfold Host.gather
  refine congrArg x ?_
  funext a
  refine Fin.ext ?_
  match a with
  | ⟨0, _⟩ =>
    show GatherDims.start DA (ix4 f e g b) idx (0 : Fin 3) + GatherDims.batchCoord DA (ix4 f e g b) (0 : Fin 3)
      + GatherDims.offCoord DA (ix4 f e g b) (0 : Fin 3) = f.val
    rw [GatherDims.batchCoord_eq_zero _ _ _ (by decide)]
    have h1 : GatherDims.start DA (ix4 f e g b) idx (0 : Fin 3) = 0 := by
      unfold GatherDims.start; exact dif_neg (by decide)
    have h3 : GatherDims.offCoord DA (ix4 f e g b) (0 : Fin 3) = f.val := by
      unfold GatherDims.offCoord; rw [dif_pos (by decide)]; rfl
    exact (congrArg₂ (· + 0 + ·) h1 h3).trans (by simp)
  | ⟨1, _⟩ =>
    show GatherDims.start DA (ix4 f e g b) idx (1 : Fin 3) + GatherDims.batchCoord DA (ix4 f e g b) (1 : Fin 3)
      + GatherDims.offCoord DA (ix4 f e g b) (1 : Fin 3) = e.val
    rw [GatherDims.batchCoord_eq_zero _ _ _ (by decide)]
    have h1 : GatherDims.start DA (ix4 f e g b) idx (1 : Fin 3) = 0 := by
      unfold GatherDims.start; exact dif_neg (by decide)
    have h3 : GatherDims.offCoord DA (ix4 f e g b) (1 : Fin 3) = e.val := by
      unfold GatherDims.offCoord; rw [dif_pos (by decide)]; rfl
    exact (congrArg₂ (· + 0 + ·) h1 h3).trans (by simp)
  | ⟨2, _⟩ =>
    show GatherDims.start DA (ix4 f e g b) idx (2 : Fin 3) + GatherDims.batchCoord DA (ix4 f e g b) (2 : Fin 3)
      + GatherDims.offCoord DA (ix4 f e g b) (2 : Fin 3) = _
    rw [GatherDims.batchCoord_eq_zero _ _ _ (by decide), GatherDims.offCoord_eq_zero _ _ _ (by decide)]
    simp only [Nat.add_zero]
    unfold GatherDims.start
    rw [dif_pos (by decide)]
    have hsi : GatherDims.siIdx DA (ix4 f e g b) ⟨List.idxOf (2 : Fin 3) (GatherDims.startIndexMap DA), by decide⟩
        = ix3 g b (0 : Fin 1) := by
      funext a'; refine Fin.ext ?_
      match a' with
      | ⟨0, _⟩ => rfl
      | ⟨1, _⟩ => rfl
      | ⟨2, _⟩ => rfl
    exact congrArg (fun k => min (idx k).toInt.toNat 99999) hsi

theorem kV38_apply (a0 : IVec S2048x39 32) (a2 : FVec Ideal S39x100000x10 .f32) (f : Fin 38) (e : Fin 10) (g : Fin 38) (b : Fin 2048) :
    kV38 a0 a2 (ix4 f e g b) = Cert.Spec.A a2 a0 b (Cert.Spec.up f) (Cert.Spec.up g) e := by
  unfold kV38
  refine (gatherA_apply _ _ f e g b).trans ?_
  refine (kTab_apply a2 f e _).trans ?_
  have hidx : broadcastInDim S38x2048x1 ![0, 1] bcast_S38x2048_S38x2048x1_0_1 (kIdxT a0) (ix3 g b (0 : Fin 1))
      = Cert.Spec.nrm 100000#32 (a0 (ix2 b (Cert.Spec.up g))) := by
    refine (broadcastInDim_apply _ _ _ _ (ix2 g b) fun a => ?_).trans (kIdxT_apply a0 g b)
    match a with
    | ⟨0, _⟩ => exact (if_neg (show ¬(38 : ℕ) = 1 by decide)).symm
    | ⟨1, _⟩ => exact (if_neg (show ¬(2048 : ℕ) = 1 by decide)).symm
  have hrow : (⟨min (broadcastInDim S38x2048x1 ![0, 1] bcast_S38x2048_S38x2048x1_0_1 (kIdxT a0) (ix3 g b (0 : Fin 1))).toInt.toNat 99999,
      by omega⟩ : Fin 100000) = Cert.Spec.rowOf (a0 (ix2 b (Cert.Spec.up g))) :=
    Fin.ext (congrArg (fun w : BitVec 32 => min w.toInt.toNat 99999) hidx)
  exact congrArg (fun r => a2 (ix3 (Cert.Spec.up f) r e)) hrow

theorem kV39_apply (a0 : IVec S2048x39 32) (a2 : FVec Ideal S39x100000x10 .f32) (g : Fin 38) (e : Fin 10) (f : Fin 38) (b : Fin 2048) :
    kV39 a0 a2 (ix4 g e f b) = Cert.Spec.A a2 a0 b (Cert.Spec.up f) (Cert.Spec.up g) e := by
  unfold kV39
  refine (transpose_apply _ _ _ _ (ix4 f e g b) fun a => ?_).trans (kV38_apply a0 a2 f e g b)
  match a with
  | ⟨0, _⟩ => rfl
  | ⟨1, _⟩ => rfl
  | ⟨2, _⟩ => rfl
  | ⟨3, _⟩ => rfl

end Read

/-! ## The buffers at the region's entry are the stages of the arguments -/

section Entry
variable (m : (ℓ : Loc nD τ sig) → Buf (Elt Ideal) ℓ) (c : Dev nD)

theorem v41_eq : (Gen.V m c main_v41 : S38x2048.Idx → EReal) = kV41 (F := Ideal) (m ((c.tc : Thread nD τ).loc main_arg1)) := by
  show StableHlo.after Gen.hostOps0 (fun b => m (c, b)) (Proc.devRef .tc main_v41) = _
  after_results_simp
  rfl

theorem v9_eq : Gen.V m c main_v9 = KFirst (F := Ideal) (m ((c.tc : Thread nD τ).loc main_arg0))
    (m ((c.tc : Thread nD τ).loc main_arg1)) (m ((c.tc : Thread nD τ).loc main_arg3)) := by
  show StableHlo.after Gen.hostOps0 (fun b => m (c, b)) (Proc.devRef .tc main_v9) = _
  after_results_simp
  rfl

theorem v38_eq : (Gen.V m c main_v38 : S38x10x38x2048.Idx → EReal) = kV38 (F := Ideal) (m ((c.tc : Thread nD τ).loc main_arg0))
    (m ((c.tc : Thread nD τ).loc main_arg2)) := by
  show StableHlo.after Gen.hostOps0 (fun b => m (c, b)) (Proc.devRef .tc main_v38) = _
  after_results_simp
  rfl

theorem v39_eq : (Gen.V m c main_v39 : S38x10x38x2048.Idx → EReal) = kV39 (F := Ideal) (m ((c.tc : Thread nD τ).loc main_arg0))
    (m ((c.tc : Thread nD τ).loc main_arg2)) := by
  show StableHlo.after Gen.hostOps0 (fun b => m (c, b)) (Proc.devRef .tc main_v39) = _
  after_results_simp
  rfl

end Entry

/-! ## The buffers at the region's entry, read at an index -/

section Final
variable (m : (ℓ : Loc nD τ sig) → Buf (Elt Ideal) ℓ) (c : Dev nD)

/-- The first gathered operand at (f, e, g, b): entry e of the row that column g selects in table f. -/
theorem v38_apply (f : Fin 38) (e : Fin 10) (g : Fin 38) (b : Fin 2048) :
    (Gen.V m c main_v38 : S38x10x38x2048.Idx → EReal) (ix4 f e g b)
      = Cert.Spec.A (m ((c.tc : Thread nD τ).loc main_arg2)) (m ((c.tc : Thread nD τ).loc main_arg0)) b
          (Cert.Spec.up f) (Cert.Spec.up g) e :=
  (congrFun (v38_eq m c) _).trans (kV38_apply _ _ f e g b)

/-- The second gathered operand at (g, e, f, b): the same entry, the two field axes exchanged. -/
theorem v39_apply (g : Fin 38) (e : Fin 10) (f : Fin 38) (b : Fin 2048) :
    (Gen.V m c main_v39 : S38x10x38x2048.Idx → EReal) (ix4 g e f b)
      = Cert.Spec.A (m ((c.tc : Thread nD τ).loc main_arg2)) (m ((c.tc : Thread nD τ).loc main_arg0)) b
          (Cert.Spec.up f) (Cert.Spec.up g) e :=
  (congrFun (v39_eq m c) _).trans (kV39_apply _ _ g e f b)

/-- The transposed values at (g, b): sample b's value in column g. -/
theorem v41_apply (g : Fin 38) (b : Fin 2048) :
    (Gen.V m c main_v41 : S38x2048.Idx → EReal) (ix2 g b)
      = (m ((c.tc : Thread nD τ).loc main_arg1) : S2048x39.Idx → EReal) (ix2 b (Cert.Spec.up g)) :=
  (congrFun (v41_eq m c) _).trans (kV41_apply _ g b)

end Final

end Cert.KernelIdeal.KHost

end
-- ==== Proof.KDiag.lean ====
/-
  The diagonal term the kernel's program computes on the host before its region, read at an index.

  The program slices the first 38 columns off the index array and the first 38 tables off the embeddings, applies the
  index rule (a negative row counts from the end of the 100000 rows), gathers for every field `f` and sample `b` the row
  of table `f` that column `f` of sample `b` selects (the gather clamps what is still out of range), squares it entry by
  entry, multiplies by the squared value of column `f` and sums over the 38 fields and the 10 entries from zero:
  `∑ f, ∑ e, v[b, f]² · A[b, f, f, e]²`, the diagonal of the all-ordered-pairs sum.

  First the array the region finds is shown to be the composed term of the argument arrays (the host operations before
  the region, unfolded); then every layout operation of that term is read at an index over literal coordinates, the gather
  through its dimension numbers axis by axis, and the sum over the two trailing axes is re-indexed as a double sum.
-/
import proofs.«108280_j73169062855073_1_alg».proof.Proof.Gen.KernelIdeal.Frame
import proofs.«108280_j73169062855073_1_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

noncomputable section

open scoped BigOperators

namespace Cert.KernelIdeal.KDiag

open Cert.KernelIdeal Cert.KernelIdeal.Facts₀ Idealize.ShloMosaic Idealize.ShloMosaic.ValueIdx

/-- The row indices of the first 38 columns, a negative one counted from the end of the 100000 rows. -/
def kNrm (a0 : IVec S2048x39 32) : IVec S2048x38 32 :=
  select
    (cmpi .slt (extractStridedSlice S2048x38 ![0, 0] a0 slices_S2048x39_S2048x38_0_0)
      (broadcastInDim S2048x38 ![] bcast_S_S2048x38 (constantI S_ 32 0#32)))
    (addi (extractStridedSlice S2048x38 ![0, 0] a0 slices_S2048x39_S2048x38_0_0)
      (broadcastInDim S2048x38 ![] bcast_S_S2048x38 (constantI S_ 32 100000#32)))
    (extractStridedSlice S2048x38 ![0, 0] a0 slices_S2048x39_S2048x38_0_0)

/-- Field `f`'s own row for sample `b`: entry `(b, f, e)` is entry `e` of the row of table `f` that column `f` selects. -/
def kOwn (a0 : IVec S2048x39 32) (a2 : FVec Ideal S39x100000x10 .f32) : FVec Ideal S2048x38x10 .f32 :=
  transpose S2048x38x10 [1, 0, 2]
    (Host.gather gather_S38x100000x10_S38x2048x1_S38x2048x10_2_1_0_0_1_2_1110
      (extractStridedSlice S38x100000x10 ![0, 0, 0] a2 slices_S39x100000x10_S38x100000x10_0_0_0)
      (broadcastInDim S38x2048x1 ![0, 1] bcast_S38x2048_S38x2048x1_0_1
        (transpose S38x2048 [1, 0] (kNrm a0) transposes_S2048x38_S38x2048_1_0)))
    transposes_S38x2048x10_S2048x38x10_1_0_2

/-- The squared values of the first 38 columns. -/
def kSq (a1 : FVec Ideal S2048x39 .f32) : FVec Ideal S2048x38 .f32 :=
  mulf (extractStridedSlice S2048x38 ![0, 0] a1 slices_S2048x39_S2048x38_0_0)
    (extractStridedSlice S2048x38 ![0, 0] a1 slices_S2048x39_S2048x38_0_0)

/-- The diagonal term: the squared values times the squared own rows, summed over fields and entries. -/
def kDiag (a0 : IVec S2048x39 32) (a1 : FVec Ideal S2048x39 .f32) (a2 : FVec Ideal S39x100000x10 .f32) :
    FVec Ideal S2048 .f32 :=
  Host.reduceAdd
    (mulf
      (broadcastInDim S2048x38x10 ![0, 1, 2] bcast_S2048x38x1_S2048x38x10_0_1_2
        (broadcastInDim S2048x38x1 ![0, 1] bcast_S2048x38_S2048x38x1_0_1 (kSq a1)))
      (mulf (kOwn a0 a2) (kOwn a0 a2)))
    (constant S_ .f32 0x00000000#32) reducesTo_S2048x38x10_S2048_d1_2 h_S_

/-! ## The layout operations read at an index -/

section Reads
variable {α : Type}

/-- Keeping the first 38 columns of an array `[2048, 39]`, read at `(b, f)`. -/
theorem slice_cols_apply (x : S2048x39.Idx → α) (b : Fin 2048) (f : Fin 38) :
    extractStridedSlice S2048x38 ![0, 0] x slices_S2048x39_S2048x38_0_0 (ix2 b f) = x (ix2 b (Cert.Spec.up f)) :=
  extractStridedSlice_apply _ x _ _ (ix2 b (Cert.Spec.up f)) fun a => by
    match a with
    | ⟨0, _⟩ => exact (Nat.zero_add _).symm
    | ⟨1, _⟩ => exact (Nat.zero_add _).symm

/-- Keeping the first 38 tables, read at `(f, r, e)`. -/
theorem slice_tabs_apply (x : S39x100000x10.Idx → α) (f : Fin 38) (r : Fin 100000) (e : Fin 10) :
    extractStridedSlice S38x100000x10 ![0, 0, 0] x slices_S39x100000x10_S38x100000x10_0_0_0 (ix3 f r e)
      = x (ix3 (Cert.Spec.up f) r e) :=
  extractStridedSlice_apply _ x _ _ (ix3 (Cert.Spec.up f) r e) fun a => by
    match a with
    | ⟨0, _⟩ => exact (Nat.zero_add _).symm
    | ⟨1, _⟩ => exact (Nat.zero_add _).symm
    | ⟨2, _⟩ => exact (Nat.zero_add _).symm

/-- The transpose `[2048, 38] → [38, 2048]`, read at `(f, b)`. -/
theorem tr2_apply (x : S2048x38.Idx → α) (f : Fin 38) (b : Fin 2048) :
    transpose S38x2048 [1, 0] x transposes_S2048x38_S38x2048_1_0 (ix2 f b) = x (ix2 b f) :=
  transpose_apply _ x _ _ (ix2 b f) fun a => by
    match a with
    | ⟨0, _⟩ => rfl
    | ⟨1, _⟩ => rfl

/-- The transpose `[38, 2048, 10] → [2048, 38, 10]`, read at `(b, f, e)`. -/
theorem tr3_apply (x : S38x2048x10.Idx → α) (b : Fin 2048) (f : Fin 38) (e : Fin 10) :
    transpose S2048x38x10 [1, 0, 2] x transposes_S38x2048x10_S2048x38x10_1_0_2 (ix3 b f e) = x (ix3 f b e) :=
  transpose_apply _ x _ _ (ix3 f b e) fun a => by
    match a with
    | ⟨0, _⟩ => rfl
    | ⟨1, _⟩ => rfl
    | ⟨2, _⟩ => rfl

/-- A trailing unit axis added to `[38, 2048]`, read at `(f, b, z)`. -/
theorem bc_idx_apply (x : S38x2048.Idx → α) (f : Fin 38) (b : Fin 2048) (z : Fin 1) :
    broadcastInDim S38x2048x1 ![0, 1] bcast_S38x2048_S38x2048x1_0_1 x (ix3 f b z) = x (ix2 f b) :=
  broadcastInDim_apply _ _ x _ (ix2 f b) fun a => by
    match a with
    | ⟨0, _⟩ => rfl
    | ⟨1, _⟩ => rfl

/-- A trailing unit axis added to `[2048, 38]`, read at `(b, f, z)`. -/
theorem bc_val_apply (x : S2048x38.Idx → α) (b : Fin 2048) (f : Fin 38) (z : Fin 1) :
    broadcastInDim S2048x38x1 ![0, 1] bcast_S2048x38_S2048x38x1_0_1 x (ix3 b f z) = x (ix2 b f) :=
  broadcastInDim_apply _ _ x _ (ix2 b f) fun a => by
    match a with
    | ⟨0, _⟩ => rfl
    | ⟨1, _⟩ => rfl

/-- The unit axis of `[2048, 38, 1]` copied along the 10 entries, read at `(b, f, e)`. -/
theorem bc_ent_apply (x : S2048x38x1.Idx → α) (b : Fin 2048) (f : Fin 38) (e : Fin 10) :
    broadcastInDim S2048x38x10 ![0, 1, 2] bcast_S2048x38x1_S2048x38x10_0_1_2 x (ix3 b f e) = x (ix3 b f 0) :=
  broadcastInDim_apply _ _ x _ (ix3 b f 0) fun a => by
    match a with
    | ⟨0, _⟩ => rfl
    | ⟨1, _⟩ => rfl
    | ⟨2, _⟩ => rfl

end Reads

/-- The index rule on a whole array is the rule on each element. -/
theorem nrm_rows (v : IVec S2048x38 32) (i : S2048x38.Idx) :
    select (cmpi .slt v (broadcastInDim S2048x38 ![] bcast_S_S2048x38 (constantI S_ 32 0#32)))
      (addi v (broadcastInDim S2048x38 ![] bcast_S_S2048x38 (constantI S_ 32 100000#32))) v i
      = Cert.Spec.nrm 100000#32 (v i) := rfl

theorem kNrm_apply (a0 : IVec S2048x39 32) (b : Fin 2048) (f : Fin 38) :
    kNrm a0 (ix2 b f) = Cert.Spec.nrm 100000#32 (a0 (ix2 b (Cert.Spec.up f))) :=
  (nrm_rows _ _).trans (congrArg _ (slice_cols_apply a0 b f))

theorem kSq_apply (a1 : FVec Ideal S2048x39 .f32) (b : Fin 2048) (f : Fin 38) :
    (kSq a1 (ix2 b f) : EReal) = a1 (ix2 b (Cert.Spec.up f)) * a1 (ix2 b (Cert.Spec.up f)) := by
  unfold kSq
  rw [mulf_apply, slice_cols_apply]

/-! ## The gather of own rows read at an index -/

local notation "gd" => gather_S38x100000x10_S38x2048x1_S38x2048x10_2_1_0_0_1_2_1110

/-- The gather read at `(f, b, e)`: the operand at table `f` (the batching axis: the result's own coordinate), at the
    row the start index at `(f, b, 0)` names, read signed and clamped into `[0, 99999]`, at entry `e` (the offset axis). -/
theorem gather_apply {α : Type} (x : S38x100000x10.Idx → α) (idx : IVec S38x2048x1 32) (f : Fin 38) (b : Fin 2048)
    (e : Fin 10) (r : Fin 100000) (hr : r.val = min (idx (ix3 f b 0)).toInt.toNat 99999) :
    Host.gather gd x idx (ix3 f b e) = x (ix3 f r e) := by
  unfold Host.gather
  refine congrArg x ?_
  funext a
  refine Fin.ext ?_
  match a with
  | ⟨0, _⟩ =>
    show (gd).start (ix3 f b e) idx 0 + (gd).batchCoord (ix3 f b e) 0 + (gd).offCoord (ix3 f b e) 0 = f.val
    have hb : (0 : Fin 3) ∈ (gd).operandBatchingDims := List.mem_singleton.mpr rfl
    rw [GatherDims.start_batching gd _ idx 0 hb,
      GatherDims.offCoord_eq_zero gd _ 0 (fun h => ((GatherDims.mem_sKept gd 0).1 h).2 hb)]
    unfold GatherDims.batchCoord
    rw [dif_pos hb, Nat.add_zero, Nat.zero_add]
    rfl
  | ⟨1, _⟩ =>
    show (gd).start (ix3 f b e) idx 1 + (gd).batchCoord (ix3 f b e) 1 + (gd).offCoord (ix3 f b e) 1 = r.val
    have hc : (1 : Fin 3) ∈ (gd).collapsedSliceDims := List.mem_singleton.mpr rfl
    have hm : (1 : Fin 3) ∈ (gd).startIndexMap := List.mem_singleton.mpr rfl
    rw [GatherDims.batchCoord_eq_zero gd _ 1 (show (1 : Fin 3) ∉ [0] by decide),
      GatherDims.offCoord_eq_zero gd _ 1 (fun h => ((GatherDims.mem_sKept gd 1).1 h).1 hc)]
    unfold GatherDims.start
    rw [dif_pos hm]
    have hsi : (gd).siIdx (ix3 f b e) ⟨List.idxOf (1 : Fin 3) (gd).startIndexMap, List.idxOf_lt_length_iff.2 hm⟩
        = ix3 f b 0 := by
      funext d; refine Fin.ext ?_
      match d with
      | ⟨0, _⟩ => rfl
      | ⟨1, _⟩ => rfl
      | ⟨2, _⟩ => rfl
    rw [hsi, hr]
    rfl
  | ⟨2, _⟩ =>
    show (gd).start (ix3 f b e) idx 2 + (gd).batchCoord (ix3 f b e) 2 + (gd).offCoord (ix3 f b e) 2 = e.val
    have hk : (2 : Fin 3) ∈ (gd).sKept :=
      (GatherDims.mem_sKept gd 2).2 ⟨show (2 : Fin 3) ∉ [1] by decide, show (2 : Fin 3) ∉ [0] by decide⟩
    rw [GatherDims.batchCoord_eq_zero gd _ 2 (show (2 : Fin 3) ∉ [0] by decide)]
    unfold GatherDims.start GatherDims.offCoord
    have hn : (2 : Fin 3) ∉ (gd).startIndexMap := show (2 : Fin 3) ∉ [1] by decide
    rw [dif_neg hn, dif_pos hk, Nat.add_zero, Nat.zero_add]
    rfl

theorem kOwn_apply (a0 : IVec S2048x39 32) (a2 : FVec Ideal S39x100000x10 .f32) (b : Fin 2048) (f : Fin 38) (e : Fin 10) :
    (kOwn a0 a2 (ix3 b f e) : EReal) = Cert.Spec.A a2 a0 b (Cert.Spec.up f) (Cert.Spec.up f) e := by
  unfold kOwn Cert.Spec.A
  refine (tr3_apply _ b f e).trans ?_
  refine (gather_apply _ _ f b e (Cert.Spec.rowOf (a0 (ix2 b (Cert.Spec.up f)))) ?_).trans ?_
  · show min (Cert.Spec.nrm 100000#32 (a0 (ix2 b (Cert.Spec.up f)))).toInt.toNat 99999 = _
    rw [bc_idx_apply, tr2_apply, kNrm_apply]
  · exact slice_tabs_apply a2 f _ e

/-! ## The sum over fields and entries -/

/-- The host's sum over the two trailing axes of `[2048, 38, 10]`, read at `b`: the initial value plus the double sum. -/
theorem reduce_apply (x : S2048x38x10.Idx → EReal) (init : EReal) (b : Fin 2048) :
    Ideal.hostReduceAdd reducesTo_S2048x38x10_S2048_d1_2 x init (ix1 b)
      = init + ∑ f : Fin 38, ∑ e : Fin 10, x (ix3 b f e) := by
  unfold Ideal.hostReduceAdd
  refine congrArg (init + ·) ?_
  refine Eq.trans ?_ (Finset.sum_product' Finset.univ Finset.univ (fun f e => x (ix3 b f e)))
  -- an index that drops to `b` is `(b, f, e)` of its two trailing coordinates
  have key : ∀ i ∈ Finset.univ.filter (fun i : S2048x38x10.Idx => reducesTo_S2048x38x10_S2048_d1_2.drop i = ix1 b),
      ix3 b (i 1 : Fin 38) (i 2 : Fin 10) = i := by
    intro i hi
    have h0 : ((reducesTo_S2048x38x10_S2048_d1_2.drop i) 0 : Nat) = b.val :=
      congrArg (fun j : S2048.Idx => ((j 0 : Fin 2048) : Nat)) (Finset.mem_filter.1 hi).2
    rw [Shape.ReducesTo.drop_apply_val_of_eq reducesTo_S2048x38x10_S2048_d1_2 i 0 0] at h0
    funext a
    refine Fin.ext ?_
    match a with
    | ⟨0, _⟩ => exact h0.symm
    | ⟨1, _⟩ => rfl
    | ⟨2, _⟩ => rfl
  refine Finset.sum_nbij' (fun i => ((i 1 : Fin 38), (i 2 : Fin 10))) (fun p => ix3 b p.1 p.2) ?_ ?_ key ?_ ?_
  · intro i _
    exact Finset.mem_product.2 ⟨Finset.mem_univ _, Finset.mem_univ _⟩
  · intro p _
    refine Finset.mem_filter.2 ⟨Finset.mem_univ _, ?_⟩
    funext a
    refine Fin.ext ?_
    match a with
    | ⟨0, _⟩ => exact Shape.ReducesTo.drop_apply_val_of_eq reducesTo_S2048x38x10_S2048_d1_2 _ 0 0
  · intro p _
    rfl
  · intro i hi
    exact (congrArg x (key i hi)).symm

/-- The composed term read at `b` is the diagonal sum. -/
theorem kDiag_apply (a0 : IVec S2048x39 32) (a1 : FVec Ideal S2048x39 .f32) (a2 : FVec Ideal S39x100000x10 .f32)
    (b : Fin 2048) : (kDiag a0 a1 a2 (ix1 b) : EReal) = Cert.Spec.diagK a2 a0 a1 b := by
  unfold kDiag Cert.Spec.diagK
  show Ideal.hostReduceAdd reducesTo_S2048x38x10_S2048_d1_2 _ (Ideal.ofBits .f32 0x00000000#32) (ix1 b) = _
  rw [reduce_apply, Ideal.ofBits_zero_f32, zero_add]
  refine Finset.sum_congr rfl fun f _ => Finset.sum_congr rfl fun e _ => ?_
  rw [mulf_apply, mulf_apply, bc_ent_apply, bc_val_apply, kSq_apply, kOwn_apply]

/-! ## The array the region finds -/

section
variable (m : (ℓ : Loc nD τ sig) → Buf (Elt Ideal) ℓ) (c : Dev nD)

/-- The array the region finds is the composed term of the argument arrays. -/
theorem v27_eq : (Gen.V m c main_v27 : S2048.Idx → EReal)
    = kDiag (m ((c.tc : Thread nD τ).loc main_arg0)) (m ((c.tc : Thread nD τ).loc main_arg1))
        (m ((c.tc : Thread nD τ).loc main_arg2)) := by
  show StableHlo.after Gen.hostOps0 (fun b => m (c, b)) (Proc.devRef .tc main_v27) = _
  after_results_simp
  rfl

/-- The diagonal array the region finds, read at `b`, is the diagonal term of the argument arrays. -/
theorem v27_apply (b : Fin 2048) : (Gen.V m c main_v27 : S2048.Idx → EReal) (ix1 b)
    = Cert.Spec.diagK (m ((c.tc : Thread nD τ).loc main_arg2)) (m ((c.tc : Thread nD τ).loc main_arg0))
        (m ((c.tc : Thread nD τ).loc main_arg1)) b :=
  (congrFun (v27_eq m c) (ix1 b)).trans (kDiag_apply _ _ _ b)

end

end Cert.KernelIdeal.KDiag

end
-- ==== Proof.KValue.lean ====
/-
  The kernel's value over the extended reals.

  The grid has 38 points. Point `i` reads slab `i` of the two operands `a`, `bt` (`[38, 10, 38, 2048]`), the whole array
  of values `v` (`[38, 2048]`) and its row `i`, and adds to a `[1, 2048]` accumulator — zeroed at point 0 — the product
  `v[i, b] * Σ_g v[g, b] * Σ_e a[i, e, g, b] * bt[i, e, g, b]`; the accumulator after the last point is the result block.
  So the result at lane `b` is the ordered sum over the points of these contributions, which over the extended reals is
  `Spec.rawOf a bt v b` (`acc_apply`, by induction on the point; `result_apply`). The lines after the region subtract
  the diagonal, halve, add the linear term and take the logistic: `Spec.sigTail x (Spec.halfDiff raw diag)` (`tail_eq`).
  `run` states the whole run: the final array at that value, the four arguments unchanged.
-/
import proofs.«108280_j73169062855073_1_alg».proof.Proof.Gen.KernelIdeal.Frame
import proofs.«108280_j73169062855073_1_alg».proof.Proof.Spec
import Idealize.ShloMosaic.Lib.Pipeline.Value
import Idealize.ShloMosaic.Lib.ValueLayout
import Idealize.ShloMosaic.Lib.StableHlo.Run
import Idealize.ShloMosaic.Lib.Tactic
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.KValue

open Cert.KernelIdeal Cert.KernelIdeal.Gen

variable {F : FTy → Type} [FloatOps F]

theorem hz : (![0, 0] : Fin 2 → Nat) = fun _ => 0 := funext fun a => by fin_cases a <;> rfl
theorem hz4 : (![0, 0, 0, 0] : Fin 4 → Nat) = fun _ => 0 := funext fun a => by fin_cases a <;> rfl

/-- A whole-buffer load after a whole-buffer store, whatever was stored before, reads the stored payload. -/
theorem readCov_cons_unit_zero {Val : EltTy → Type} [∀ e, Nonempty (Val e)] {S : Shape} {e : EltTy} {sg : RefSig} {κ : Kind}
    {sp : Space} (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- Row `i` of the values `[38, 2048]`, as the body's row load reads it: a `[1, 2048]` vector. -/
def row (i : grid0.Coords) (x2 : Vec F S38x2048 .f32) : Vec F S1x2048 .f32 :=
  View.ld x2 (Rect.unit (s := S38x2048) (k0_off1 i) S1x2048.size (k0_off1_inb i))

/-- A later point leaves in the output block the carried sum plus this point's product. -/
theorem out_B (c : Dev nD) (i : grid0.Coords) (a1 : Memref sig .tc .vmem S1x10x38x2048 .bf16) (h1 : a1.IsWhole)
    (a2 : Memref sig .tc .vmem S1x10x38x2048 .bf16) (h2 : a2.IsWhole) (a3 : Memref sig .tc .vmem S38x2048 .f32) (h3 : a3.IsWhole)
    (a4 : Memref sig .tc .vmem S1x2048 .f32) (h4 : a4.IsWhole) (a5 : Memref sig .tc .vmem S1x2048 .f32) (h5 : a5.IsWhole)
    (hc : ¬cond0_0 i) (x0 x1 : Vec F S1x10x38x2048 .bf16) (x2 : Vec F S38x2048 .f32) (xs0 : Vec F S1x2048 .f32) :
    out0_B_3 c i a1 h1 a2 h2 a3 h3 a4 h4 a5 h5 hc x0 x1 x2 xs0 = k0_pay2 x0 x1 x2 (row i x2) xs0 := by
  unfold out0_B_3
  rw [View.read_writes_eq_canon _ _ _ (cover0_B_3 c i a1 h1 a2 h2 a3 h3 a4 h4 a5 h5 hc x0 x1 x2 xs0)]
  unfold kernelRun0_B
  dsimp only
  sl_unfold_words
  rw [View.canon_unit_zero (S := S1x2048) hz, View.readCov_unit_zero (S := S1x2048) _ hz]
  simp only [View.readAt_eq_ld, h1.read_unread, h2.read_unread, h3.read_unread, h5.read_unread,
    View.ld_unit_zero (S := S1x2048) hz, View.ld_unit_zero (S := S38x2048) hz, View.ld_unit_zero (S := S1x10x38x2048) hz4]
  rfl

/-- and the same in the carried accumulator. -/
theorem sout_B (c : Dev nD) (i : grid0.Coords) (a1 : Memref sig .tc .vmem S1x10x38x2048 .bf16) (h1 : a1.IsWhole)
    (a2 : Memref sig .tc .vmem S1x10x38x2048 .bf16) (h2 : a2.IsWhole) (a3 : Memref sig .tc .vmem S38x2048 .f32) (h3 : a3.IsWhole)
    (a4 : Memref sig .tc .vmem S1x2048 .f32) (h4 : a4.IsWhole) (a5 : Memref sig .tc .vmem S1x2048 .f32) (h5 : a5.IsWhole)
    (hc : ¬cond0_0 i) (x0 x1 : Vec F S1x10x38x2048 .bf16) (x2 : Vec F S38x2048 .f32) (xs0 : Vec F S1x2048 .f32) :
    sout0_B_0 c i a1 h1 a2 h2 a3 h3 a4 h4 a5 h5 hc x0 x1 x2 xs0 = k0_pay2 x0 x1 x2 (row i x2) xs0 := by
  unfold sout0_B_0
  rw [View.read_writes_eq_canon _ _ _ (scover0_B_0 c i a1 h1 a2 h2 a3 h3 a4 h4 a5 h5 hc x0 x1 x2 xs0)]
  unfold kernelRun0_B
  dsimp only
  sl_unfold_words
  rw [View.canon_unit_zero (S := S1x2048) hz]
  simp only [View.readAt_eq_ld, h1.read_unread, h2.read_unread, h3.read_unread, h5.read_unread,
    View.ld_unit_zero (S := S1x2048) hz, View.ld_unit_zero (S := S38x2048) hz, View.ld_unit_zero (S := S1x10x38x2048) hz4]
  rfl

/-- The first point zeroes the accumulator, so it leaves the zero block plus its product. -/
theorem out_A (c : Dev nD) (i : grid0.Coords) (a1 : Memref sig .tc .vmem S1x10x38x2048 .bf16) (h1 : a1.IsWhole)
    (a2 : Memref sig .tc .vmem S1x10x38x2048 .bf16) (h2 : a2.IsWhole) (a3 : Memref sig .tc .vmem S38x2048 .f32) (h3 : a3.IsWhole)
    (a4 : Memref sig .tc .vmem S1x2048 .f32) (h4 : a4.IsWhole) (a5 : Memref sig .tc .vmem S1x2048 .f32) (h5 : a5.IsWhole)
    (hc : cond0_0 i) (x0 x1 : Vec F S1x10x38x2048 .bf16) (x2 : Vec F S38x2048 .f32) :
    out0_A_3 c i a1 h1 a2 h2 a3 h3 a4 h4 a5 h5 hc x0 x1 x2 = k0_pay2 x0 x1 x2 (row i x2) k0_pay1 := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero (S := S1x2048) hz, readCov_cons_unit_zero (S := S1x2048) _ hz,
    View.readCov_unit_zero (S := S1x2048) _ hz]
  simp only [View.readAt_eq_ld, h1.read_unread, h2.read_unread, h3.read_unread,
    View.ld_unit_zero (S := S38x2048) hz, View.ld_unit_zero (S := S1x10x38x2048) hz4]
  rfl

theorem sout_A (c : Dev nD) (i : grid0.Coords) (a1 : Memref sig .tc .vmem S1x10x38x2048 .bf16) (h1 : a1.IsWhole)
    (a2 : Memref sig .tc .vmem S1x10x38x2048 .bf16) (h2 : a2.IsWhole) (a3 : Memref sig .tc .vmem S38x2048 .f32) (h3 : a3.IsWhole)
    (a4 : Memref sig .tc .vmem S1x2048 .f32) (h4 : a4.IsWhole) (a5 : Memref sig .tc .vmem S1x2048 .f32) (h5 : a5.IsWhole)
    (hc : cond0_0 i) (x0 x1 : Vec F S1x10x38x2048 .bf16) (x2 : Vec F S38x2048 .f32) :
    sout0_A_0 c i a1 h1 a2 h2 a3 h3 a4 h4 a5 h5 hc x0 x1 x2 = k0_pay2 x0 x1 x2 (row i x2) k0_pay1 := by
  unfold sout0_A_0
  rw [View.read_writes_eq_canon _ _ _ (scover0_A_0 c i a1 h1 a2 h2 a3 h3 a4 h4 a5 h5 hc x0 x1 x2)]
  unfold kernelRun0_A
  dsimp only
  sl_unfold_words
  rw [View.canon_cons_unit_zero (S := S1x2048) hz, View.readCov_unit_zero (S := S1x2048) _ hz]
  simp only [View.readAt_eq_ld, h1.read_unread, h2.read_unread, h3.read_unread,
    View.ld_unit_zero (S := S38x2048) hz, View.ld_unit_zero (S := S1x10x38x2048) hz4]
  rfl

/-! ## The accumulated payload read at an index, over the extended reals -/

/-- The sum over the 38 rows of a `[38, 2048]` vector, at lane `b`. -/
theorem red38 (src : FVec Ideal S38x2048 .f32) (h : S38x2048.Reduces [0] S2048) (hφ : FKind.Formats .f32)
    (hacc : (0x00000000#32 : BitVec 32) = FKind.add.neutral .f32 hφ) (b : Fin 2048) :
    multiReduction .add [0] S2048 src 0x00000000#32 h hφ hacc (ix1 b) = ∑ g : Fin 38, src (ix2 g b) := by
  refine (Ideal.multiReduction_add_single src 0x00000000#32 h hφ hacc (ix1 b)).trans ?_
  refine Finset.sum_congr rfl fun g _ => congrArg src ?_
  funext a
  apply Fin.ext
  match a with
  | ⟨0, _⟩ => rfl
  | ⟨1, _⟩ => rfl

/-- The sum over the 10 entries of a `[10, 38, 2048]` vector, at `(g, b)`. -/
theorem red10 (src : FVec Ideal S10x38x2048 .f32) (h : S10x38x2048.Reduces [0] S38x2048) (hφ : FKind.Formats .f32)
    (hacc : (0x00000000#32 : BitVec 32) = FKind.add.neutral .f32 hφ) (g : Fin 38) (b : Fin 2048) :
    multiReduction .add [0] S38x2048 src 0x00000000#32 h hφ hacc (ix2 g b) = ∑ e : Fin 10, src (ix3 e g b) := by
  refine (Ideal.multiReduction_add_single src 0x00000000#32 h hφ hacc (ix2 g b)).trans ?_
  refine Finset.sum_congr rfl fun e _ => congrArg src ?_
  funext a
  apply Fin.ext
  match a with
  | ⟨0, _⟩ => rfl
  | ⟨1, _⟩ => rfl
  | ⟨2, _⟩ => rfl

/-- One point's stored value at lane `b`: the accumulator plus the row's value times the sum over the fields `g` of the
    value of `g` times the sum over the entries of the two operands' products. -/
theorem pay2_apply (x0 x1 : Vec Ideal S1x10x38x2048 .bf16) (x2 : Vec Ideal S38x2048 .f32) (r acc : Vec Ideal S1x2048 .f32)
    (b : Fin 2048) :
    k0_pay2 (F := Ideal) x0 x1 x2 r acc (ix2 (0 : Fin 1) b)
      = acc (ix2 (0 : Fin 1) b) + r (ix2 (0 : Fin 1) b) * ∑ g : Fin 38, x2 (ix2 g b) *
          ∑ e : Fin 10, x0 (ix4 (0 : Fin 1) e g b) * x1 (ix4 (0 : Fin 1) e g b) := by
  unfold k0_pay2
  dsimp only
  refine (congrFun (shapeCast_self _ _) _).trans ?_
  refine (addf_apply _ _ _).trans ?_
  refine congrArg (acc (ix2 (0 : Fin 1) b) + ·) ?_
  refine (mulf_apply _ _ _).trans ?_
  refine congrArg₂ (· * ·) ?_ ?_
  · exact (shapeCast_a_1a_apply _ _ (0 : Fin 1) b).trans (shapeCast_1a_a_apply r _ b)
  · refine (shapeCast_a_1a_apply _ _ (0 : Fin 1) b).trans ?_
    refine (red38 _ _ _ _ b).trans ?_
    refine Finset.sum_congr rfl fun g _ => ?_
    refine (mulf_apply _ _ _).trans ?_
    refine congrArg₂ (· * ·) (congrFun (shapeCast_self x2 _) _) ?_
    refine (red10 _ _ _ _ g b).trans ?_
    refine Finset.sum_congr rfl fun e _ => ?_
    refine (extf_apply (φ := .bf16) (ψ := .f32) _ bitsLt_bf16_f32 _).trans ?_
    refine (mulf_apply _ _ _).trans ?_
    exact congrArg₂ (· * ·) (shapeCast_1abc_abc_apply x0 _ e g b) (shapeCast_1abc_abc_apply x1 _ e g b)

/-! ## The windows' blocks and the row load, read off the arrays the region finds -/

variable (m : (ℓ : Loc nD τ sig) → Buf (Elt F) ℓ) (ρ : Dev nD → PrngReg)

/-- A grid point as one of the 38 fields. -/
def fld (t : Fin cfg0.N) : Fin 38 := ⟨t.val, lt_of_lt_of_eq t.isLt N_0⟩

theorem idx0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
theorem idx1 : ∀ t : Fin cfg0.N, win0_1.index t 0 = t.val ∧ win0_1.index t 1 = 0 ∧ win0_1.index t 2 = 0 ∧ win0_1.index t 3 = 0 :=
  (by decide +kernel : ∀ t : Fin grid0.N, win0_1.index t 0 = t.val ∧ win0_1.index t 1 = 0 ∧ win0_1.index t 2 = 0 ∧ win0_1.index t 3 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem off1 : ∀ t : Fin cfg0.N, k0_off1 (grid0.coords t) 0 = t.val ∧ k0_off1 (grid0.coords t) 1 = 0 :=
  (by decide +kernel : ∀ t : Fin grid0.N, k0_off1 (grid0.coords t) 0 = t.val ∧ k0_off1 (grid0.coords t) 1 = 0)

/-- Window 0's block at point `t` is slab `t` of the first operand. -/
theorem iblk0_apply (c : Dev nD) (t : Fin cfg0.N) (e : Fin 10) (g : Fin 38) (b : Fin 2048) :
    (iblk m c 0 t : Vec F S1x10x38x2048 .bf16) (ix4 (0 : Fin 1) e g b) = V m c main_v38 (ix4 (fld t) e g b) := by
  unfold iblk
  rw [View.read_apply]
  show V m c main_v38 _ = V m c main_v38 _
  refine congrArg (V m c main_v38) ?_
  funext a
  apply Fin.ext
  match a with
  | ⟨0, _⟩ => show win0_0.index t 0 * 1 + 1 * ((0 : Fin 1) : ℕ) = (fld t).val; rw [(idx0 t).1]; show t.val * 1 + 1 * 0 = t.val; omega
  | ⟨1, _⟩ => show win0_0.index t 1 * 10 + 1 * e.val = e.val; rw [(idx0 t).2.1]; omega
  | ⟨2, _⟩ => show win0_0.index t 2 * 38 + 1 * g.val = g.val; rw [(idx0 t).2.2.1]; omega
  | ⟨3, _⟩ => show win0_0.index t 3 * 2048 + 1 * b.val = b.val; rw [(idx0 t).2.2.2]; omega

/-- Window 1's block at point `t` is slab `t` of the second operand. -/
theorem iblk1_apply (c : Dev nD) (t : Fin cfg0.N) (e : Fin 10) (g : Fin 38) (b : Fin 2048) :
    (iblk m c 1 t : Vec F S1x10x38x2048 .bf16) (ix4 (0 : Fin 1) e g b) = V m c main_v39 (ix4 (fld t) e g b) := by
  unfold iblk
  rw [View.read_apply]
  show V m c main_v39 _ = V m c main_v39 _
  refine congrArg (V m c main_v39) ?_
  funext a
  apply Fin.ext
  match a with
  | ⟨0, _⟩ => show win0_1.index t 0 * 1 + 1 * ((0 : Fin 1) : ℕ) = (fld t).val; rw [(idx1 t).1]; show t.val * 1 + 1 * 0 = t.val; omega
  | ⟨1, _⟩ => show win0_1.index t 1 * 10 + 1 * e.val = e.val; rw [(idx1 t).2.1]; omega
  | ⟨2, _⟩ => show win0_1.index t 2 * 38 + 1 * g.val = g.val; rw [(idx1 t).2.2.1]; omega
  | ⟨3, _⟩ => show win0_1.index t 3 * 2048 + 1 * b.val = b.val; rw [(idx1 t).2.2.2]; omega

/-- Window 2's block is the whole array of values at every point. -/
theorem iblk2_apply (c : Dev nD) (t : Fin cfg0.N) (g : Fin 38) (b : Fin 2048) :
    (iblk m c 2 t : Vec F S38x2048 .f32) (ix2 g b) = V m c main_v41 (ix2 g b) := by
  unfold iblk
  rw [View.read_apply]
  show V m c main_v41 _ = V m c main_v41 _
  refine congrArg (V m c main_v41) ?_
  funext a
  apply Fin.ext
  match a with
  | ⟨0, _⟩ => show win0_2.index t 0 * 38 + 1 * g.val = g.val; rw [(idx2 t).1]; omega
  | ⟨1, _⟩ => show win0_2.index t 1 * 2048 + 1 * b.val = b.val; rw [(idx2 t).2]; omega

/-- The row load at point `t` reads row `t` of the values. -/
theorem row_apply (t : Fin cfg0.N) (x2 : Vec F S38x2048 .f32) (b : Fin 2048) :
    row (grid0.coords t) x2 (ix2 (0 : Fin 1) b) = x2 (ix2 (fld t) b) := by
  unfold row
  show x2 _ = x2 _
  refine congrArg x2 ?_
  funext a
  apply Fin.ext
  match a with
  | ⟨0, _⟩ => show k0_off1 (grid0.coords t) 0 + 1 * ((0 : Fin 1) : ℕ) = (fld t).val; rw [(off1 t).1]; show t.val + 1 * 0 = t.val; omega
  | ⟨1, _⟩ => show k0_off1 (grid0.coords t) 1 + 1 * b.val = b.val; rw [(off1 t).2]; omega

/-! ## The accumulation over the grid -/

/-- One point's update of the accumulator. -/
def step (c : Dev nD) (t : Fin cfg0.N) (a : Vec F S1x2048 .f32) : Vec F S1x2048 .f32 :=
  k0_pay2 (iblk m c 0 t) (iblk m c 1 t) (iblk m c 2 t) (row (grid0.coords t) (iblk m c 2 t)) a

/-- The accumulator after point `n`: the zero block updated by the points `0 … n` in order. -/
def acc (c : Dev nD) : (n : ℕ) → n < cfg0.N → Vec F S1x2048 .f32
  | 0, h => step m c ⟨0, h⟩ k0_pay1
  | n + 1, h => step m c ⟨n + 1, h⟩ (acc c n (Nat.lt_of_succ_lt h))

/-- After point `n` the output block and the carried accumulator both hold it — by induction on the point. -/
theorem outsAt_eq (c : Dev nD) : ∀ (n : ℕ) (h : n < cfg0.N), outsAt0 m c n h = (acc m c n h, acc m c n h)
  | 0, h => by
    refine (outsAt0_A m c ⟨0, h⟩ rfl).trans ?_
    exact congrArg₂ Prod.mk
      (out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        (ms0_3 ⟨0, h⟩) (hs0_3 ⟨0, h⟩) scM0_0 (Memref.isWhole_whole _) ((hcond0_0 ⟨0, h⟩).mpr rfl)
        (iblk m c 0 ⟨0, h⟩) (iblk m c 1 ⟨0, h⟩) (iblk m c 2 ⟨0, h⟩))
      (sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        (ms0_3 ⟨0, h⟩) (hs0_3 ⟨0, h⟩) scM0_0 (Memref.isWhole_whole _) ((hcond0_0 ⟨0, h⟩).mpr rfl)
        (iblk m c 0 ⟨0, h⟩) (iblk m c 1 ⟨0, h⟩) (iblk m c 2 ⟨0, h⟩))
  | n + 1, h => by
    have hN : cfg0.N = 38 := N_0
    have hB : ¬(⟨n + 1, h⟩ : Fin cfg0.N).val % 38 = 0 := by dsimp only; omega
    have ih : (outsAt0 m c n (Nat.lt_of_succ_lt h)).2 = acc m c n (Nat.lt_of_succ_lt h) := by rw [outsAt_eq c n]
    refine (outsAt0_B m c ⟨n + 1, h⟩ hB).trans ?_
    refine congrArg₂ Prod.mk ?_ ?_
    · refine (out_B c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) scM0_0 (Memref.isWhole_whole _)
        (fun h' => hB ((hcond0_0 ⟨n + 1, h⟩).mp h')) (iblk m c 0 ⟨n + 1, h⟩) (iblk m c 1 ⟨n + 1, h⟩) (iblk m c 2 ⟨n + 1, h⟩)
        (outsAt0 m c n (Nat.lt_of_succ_lt h)).2).trans ?_
      exact congrArg (step m c ⟨n + 1, h⟩) ih
    · refine (sout_B c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) scM0_0 (Memref.isWhole_whole _)
        (fun h' => hB ((hcond0_0 ⟨n + 1, h⟩).mp h')) (iblk m c 0 ⟨n + 1, h⟩) (iblk m c 1 ⟨n + 1, h⟩) (iblk m c 2 ⟨n + 1, h⟩)
        (outsAt0 m c n (Nat.lt_of_succ_lt h)).2).trans ?_
      exact congrArg (step m c ⟨n + 1, h⟩) ih

/-- The block the last point writes back: the accumulator after point 37. -/
def tLast : Fin cfg0.N := ⟨37, by rw [show cfg0.N = 38 from N_0]; decide⟩

/-- The result array's final contents: the accumulator after the last point. -/
def result (c : Dev nD) : Buf (Elt F) ((c : Thread nD τ).loc main_v42) := acc m c 37 tLast.isLt

/-- The one write-back, at the last point, writes it: the block is the whole `[1, 2048]` array. -/
theorem flushed_eq (c : Dev nD) (t : Fin cfg0.N) (hf : (cfg0.win 3).flush t = true) :
    (dats m 0 c).flushed 3 t = ((cfg0.win 3).blk t).view.read (Elt F) (result m c) := by
  have hN : cfg0.N = 38 := N_0
  have h37 : t.val = 37 := by have := (flush0_3 t).mp hf; have := t.isLt; omega
  obtain rfl : t = tLast := Fin.ext h37
  show (cfg0.win 3).cut (grid0.coords tLast) ((dats m 0 c).after 3 tLast) = _
  rw [after0_3, outsAt_eq]
  have hz' : (fun a => win0_3.index tLast a * main_v42.ty.shape.size a) = fun _ => 0 := funext fun a => by fin_cases a <;> decide +kernel
  exact (Memref.read_access_unit_zero (Elt F) main_v42 hz' (fun a => by rw [congrFun hz' a]; simp) (result m c)).symm

/-- So the result array ends holding it. -/
theorem final_o (c : Dev nD) : (dats m 0 c).arrAt 3 cfg0.N = result m c :=
  (dats m 0 c).arrAt_eq_of_cover 3 (result m c) (flushed_eq m c) fun i =>
    ⟨tLast, (flush0_3 tLast).mpr rfl, by
      show i ∈ ((View.whole main_v42).slice (win0_3.rect tLast)).set
      rw [View.set_slice_whole, Rect.mem_set_unit]
      intro a
      have h0 : (i 0 : Nat) < 1 := (i 0).isLt
      have h1 : (i 1 : Nat) < 2048 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 2048 from by decide +kernel]; omega⟩

/-! ## The accumulated value over the extended reals -/

/-- The zero block is zero. -/
theorem pay1_apply (j : S1x2048.Idx) : k0_pay1 (F := Ideal) j = 0 := by
  unfold k0_pay1
  refine (congrFun (shapeCast_self _ _) j).trans ?_
  exact Ideal.ofBits_zero_f32

/-- One point's update at lane `b`: the accumulator plus that point's contribution. -/
theorem step_apply (m : (ℓ : Loc nD τ sig) → Buf (Elt Ideal) ℓ) (c : Dev nD) (t : Fin cfg0.N) (a : Vec Ideal S1x2048 .f32) (b : Fin 2048) :
    step m c t a (ix2 (0 : Fin 1) b) = a (ix2 (0 : Fin 1) b)
      + Cert.Spec.partOf (V m c main_v38 : S38x10x38x2048.Idx → EReal) (V m c main_v39 : S38x10x38x2048.Idx → EReal)
          (V m c main_v41 : S38x2048.Idx → EReal) (fld t) b := by
  unfold step
  refine (pay2_apply (iblk m c 0 t) (iblk m c 1 t) (iblk m c 2 t) (row (grid0.coords t) (iblk m c 2 t)) a b).trans ?_
  unfold Cert.Spec.partOf
  refine congrArg (a (ix2 (0 : Fin 1) b) + ·) ?_
  refine congrArg₂ (· * ·) ((row_apply t (iblk m c 2 t) b).trans (iblk2_apply m c t (fld t) b)) ?_
  refine Finset.sum_congr rfl fun g _ => ?_
  refine congrArg₂ (· * ·) (iblk2_apply m c t g b) ?_
  refine Finset.sum_congr rfl fun e _ => ?_
  exact congrArg₂ (· * ·) (iblk0_apply m c t e g b) (iblk1_apply m c t e g b)

/-- The accumulator after point `n`, at lane `b`: the sum of the contributions of the points `0 … n`. -/
theorem acc_apply (m : (ℓ : Loc nD τ sig) → Buf (Elt Ideal) ℓ) (c : Dev nD) (b : Fin 2048) : ∀ (n : ℕ) (h : n < cfg0.N),
    acc m c n h (ix2 (0 : Fin 1) b) = ∑ i : Fin (n + 1),
      Cert.Spec.partOf (V m c main_v38 : S38x10x38x2048.Idx → EReal) (V m c main_v39 : S38x10x38x2048.Idx → EReal)
        (V m c main_v41 : S38x2048.Idx → EReal) ⟨i.val, lt_of_lt_of_eq (lt_of_lt_of_le i.isLt (Nat.succ_le_of_lt h)) N_0⟩ b
  | 0, h => by
    refine (step_apply m c ⟨0, h⟩ (k0_pay1 (F := Ideal)) b).trans ?_
    rw [Fin.sum_univ_one, pay1_apply, zero_add]
    rfl
  | n + 1, h => by
    refine (step_apply m c ⟨n + 1, h⟩ (acc m c n (Nat.lt_of_succ_lt h)) b).trans ?_
    refine Eq.trans ?_ (Fin.sum_univ_castSucc _).symm
    exact congrArg (· + Cert.Spec.partOf (V m c main_v38 : S38x10x38x2048.Idx → EReal) (V m c main_v39 : S38x10x38x2048.Idx → EReal)
      (V m c main_v41 : S38x2048.Idx → EReal) (fld ⟨n + 1, h⟩) b) (acc_apply m c b n (Nat.lt_of_succ_lt h))

/-- The result array at lane `b`: the accumulated value. -/
theorem result_apply (m : (ℓ : Loc nD τ sig) → Buf (Elt Ideal) ℓ) (c : Dev nD) (b : Fin 2048) :
    (result m c : S1x2048.Idx → EReal) (ix2 (0 : Fin 1) b)
      = Cert.Spec.rawOf (V m c main_v38 : S38x10x38x2048.Idx → EReal) (V m c main_v39 : S38x10x38x2048.Idx → EReal)
          (V m c main_v41 : S38x2048.Idx → EReal) b := by
  unfold result
  refine (acc_apply m c b 37 tLast.isLt).trans ?_
  unfold Cert.Spec.rawOf
  rfl

/-! ## The lines after the region -/

/-- The logistic tail at lane `b`, over any linear term `x9`, diagonal `x27` and `[1, 2048]` block `R` whose lane `b` is `raw`. -/
theorem tail_apply (x9 x27 : FVec Ideal S2048 .f32) (R : FVec Ideal S1x2048 .f32) (b : Fin 2048) (raw : EReal)
    (hR : R (ix2 (0 : Fin 1) b) = raw) :
    Host.divf (broadcastInDim S2048 ![] bcast_S_S2048 (constant (F := Ideal) S_ .f32 0x3F800000#32))
      (addf (broadcastInDim S2048 ![] bcast_S_S2048 (constant (F := Ideal) S_ .f32 0x3F800000#32))
        (Host.exp (Host.negf (addf x9 (mulf (broadcastInDim S2048 ![] bcast_S_S2048 (constant (F := Ideal) S_ .f32 0x3F000000#32))
          (subf (shapeCast S2048 R shapeCasts_S1x2048_S2048) x27)))))) (ix1 b)
      = Ideal.div (Ideal.ofBits .f32 0x3F800000#32) (Ideal.ofBits .f32 0x3F800000#32
          + Ideal.exp (-(x9 (ix1 b) + Ideal.ofBits .f32 0x3F000000#32 * (raw - x27 (ix1 b))))) := by
  subst hR
  exact congrArg (fun z : EReal => Ideal.div (Ideal.ofBits .f32 0x3F800000#32) (Ideal.ofBits .f32 0x3F800000#32
      + Ideal.exp (-(x9 (ix1 b) + Ideal.ofBits .f32 0x3F000000#32 * (z - x27 (ix1 b))))))
    (shapeCast_1a_a_apply R shapeCasts_S1x2048_S2048 b)

/-- The lines after the region leave the logistic of the linear term plus half the difference of the accumulated value
    and the diagonal. -/
theorem tail_eq (m : (ℓ : Loc nD τ sig) → Buf (Elt Ideal) ℓ) (c : Dev nD) :
    Pipeline.afterTail₀ cfgs (dats m) 0 (V0 m) [hostOps1] c main_v53
      = Cert.Spec.sigTail (V m c main_v9)
          (Cert.Spec.halfDiff (fun j => Cert.Spec.rawOf (V m c main_v38 : S38x10x38x2048.Idx → EReal) (V m c main_v39 : S38x10x38x2048.Idx → EReal) (V m c main_v41 : S38x2048.Idx → EReal) (j 0)) (V m c main_v27)) := by
  have e9 : Pipeline.withArrays (cfgs 0).spec c (V0 m c) (fun w => (dats m 0 c).arrAt w (cfgs 0).N) (Proc.devRef .tc main_v9)
      = V m c main_v9 :=
    Pipeline.withArrays_of_ne _ c (V0 m c) _ main_v9 (by exact (by decide : ∀ w, Pipeline.arrRef spec0 w ≠ main_v9))
  have e27 : Pipeline.withArrays (cfgs 0).spec c (V0 m c) (fun w => (dats m 0 c).arrAt w (cfgs 0).N) (Proc.devRef .tc main_v27)
      = V m c main_v27 :=
    Pipeline.withArrays_of_ne _ c (V0 m c) _ main_v27 (by exact (by decide : ∀ w, Pipeline.arrRef spec0 w ≠ main_v27))
  have e42 : Pipeline.withArrays (cfgs 0).spec c (V0 m c) (fun w => (dats m 0 c).arrAt w (cfgs 0).N) (Proc.devRef .tc main_v42)
      = result m c :=
    (Pipeline.withArrays_arr spec0 launch0.win.arr_inj c _ _ 3).trans (final_o m c)
  unfold Pipeline.afterTail₀
  show StableHlo.after hostOps1 _ (Proc.devRef .tc main_v53) = _
  after_results
  rw [e9, e27, e42]
  funext j
  obtain ⟨b, rfl⟩ : ∃ b : Fin 2048, j = ix1 b := ⟨j 0, eq_ix1 j⟩
  unfold Cert.Spec.sigTail Cert.Spec.halfDiff
  exact tail_apply (V m c main_v9) (V m c main_v27) (result m c) b _ (result_apply m c b)

/-! ## The run, read -/

/-- Every weakly fair execution ends with the result at the logistic tail of the accumulated value, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v53)
          = Cert.Spec.sigTail (Gen.V m c main_v9)
              (Cert.Spec.halfDiff (fun j => Cert.Spec.rawOf (Gen.V m c main_v38) (Gen.V m c main_v39) (Gen.V m c main_v41) (j 0)) (Gen.V m c main_v27))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v53 (Pipeline.mem_restRefs_of main_v53 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue
end
-- ==== Proof.lean ====
/-
  A field-aware factorisation machine's forward pass: the Pallas kernel's program against its jnp reference, equal over
  the extended reals for finite inputs.

  Sample `b` has 39 feature columns; column `g` holds an index into each of 39 embedding tables of 100000 rows of 10
  entries, and a value `v_g`. Write `A b i g e` for entry `e` of the row that column `g` selects in table `i` (jnp's index
  rule: a negative index counts from the end, and the gather clamps what is still out of range — both programs apply
  the same rule, so no bound on the indices is needed). Both programs return the logistic function of a first-order
  term, the same ten host operations in each, plus a second-order term over the first 38 fields:

    the reference sums `(A b i j e · v_j) · (A b j i e · v_i)` over the 703 pairs `i < j`, listed by two literal
    tables, and the 10 entries;

    the kernel's program gathers, on the host, the arrays `H[f, e, g, b] = A b f g e` and its transpose in `(f, g)`,
    runs a kernel over a grid of 38 points `i` that accumulates `v_i · Σ_g v_g · Σ_e H[i, e, g, b] · H[g, e, i, b]`
    into a scratch row carried across the points — every ordered pair `(i, g)` of the 38 fields —, then subtracts the
    diagonal `Σ_f Σ_e v_f² · (A b f f e)²` and halves.

  The weight `v_i · v_g · Σ_e A b i g e · A b g i e` is symmetric in `(i, g)`, so all ordered pairs are twice the pairs
  `i < g` plus the diagonal: half of the difference is the sum over the pairs `i < j`, which the two tables enumerate
  without repetition (decided entry by entry). The cancellation needs real entries — on the extended reals a
  difference does not cancel at the infinities — and the precondition gives them. The kernel's idealization rewrote
  no operation, so the word-level kernel needs nothing beyond its frame.

  The modules: Spec (the vocabulary), LibPairSum and Algebra (the law), Tables (the two literal tables), Finite (the
  precondition read as "every entry is a real"), RefStages / RefRun / RefRead (the reference's @main as stages, its run,
  and the stages read index by index), KHost / KDiag (the arrays the kernel's program gathers on the host, read at an
  index), KValue (the kernel's accumulated output read off its frame run, and the host operations after it).
-/
import proofs.«108280_j73169062855073_1_alg».proof.Defs
import proofs.«108280_j73169062855073_1_alg».proof.Proof.Gen.Kernel
import proofs.«108280_j73169062855073_1_alg».proof.Proof.Gen.Kernel.Skeleton
import proofs.«108280_j73169062855073_1_alg».proof.Proof.Gen.Kernel.Launch
import proofs.«108280_j73169062855073_1_alg».proof.Proof.Gen.Kernel.Points
import proofs.«108280_j73169062855073_1_alg».proof.Proof.Gen.Kernel.Frame
import proofs.«108280_j73169062855073_1_alg».proof.Proof.Gen.KernelIdeal
import proofs.«108280_j73169062855073_1_alg».proof.Proof.Gen.KernelIdeal.Skeleton
import proofs.«108280_j73169062855073_1_alg».proof.Proof.Gen.KernelIdeal.Launch
import proofs.«108280_j73169062855073_1_alg».proof.Proof.Gen.KernelIdeal.Points
import proofs.«108280_j73169062855073_1_alg».proof.Proof.Gen.KernelIdeal.Frame
import proofs.«108280_j73169062855073_1_alg».proof.Proof.Gen.ReferenceIdeal
import proofs.«108280_j73169062855073_1_alg».proof.Proof.Gen.Pre_finite_inputs
import proofs.«108280_j73169062855073_1_alg».proof.Proof.Spec
import proofs.«108280_j73169062855073_1_alg».proof.Proof.Algebra
import proofs.«108280_j73169062855073_1_alg».proof.Proof.Tables
import proofs.«108280_j73169062855073_1_alg».proof.Proof.Finite
import proofs.«108280_j73169062855073_1_alg».proof.Proof.RefStages
import proofs.«108280_j73169062855073_1_alg».proof.Proof.RefRun
import proofs.«108280_j73169062855073_1_alg».proof.Proof.RefRead
import proofs.«108280_j73169062855073_1_alg».proof.Proof.KHost
import proofs.«108280_j73169062855073_1_alg».proof.Proof.KDiag
import proofs.«108280_j73169062855073_1_alg».proof.Proof.KValue
import Idealize.ShloMosaic.Lib.ValueIdx
import Idealize.ShloMosaic.Adequacy
import Idealize.ShloMosaic.Init

noncomputable section

open Idealize.ShloMosaic Idealize.ShloMosaic.TcCoe Idealize.SL.Sem Idealize.ShloMosaic.ValueIdx

namespace Cert.Proof

open Cert.Spec

/-- The first-order term is the same ten host operations in both programs. -/
theorem first_eq (a0 : IVec Cert.KernelIdeal.S2048x39 32) (a1 : FVec Ideal Cert.KernelIdeal.S2048x39 .f32)
    (a3 : FVec Ideal Cert.KernelIdeal.S100000x1 .f32) :
    Cert.KernelIdeal.KHost.KFirst (F := Ideal) a0 a1 a3 = Cert.ReferenceIdeal.Stages.first (F := Ideal) a0 a1 a3 := rfl

section Kernel
open Cert.KernelIdeal

/-- The kernel's accumulated output, over the arrays its program gathers on the host, in the specification's terms. -/
theorem raw_eq (m : (ℓ : Loc nD τ sig) → Buf (Elt Ideal) ℓ) (c : Dev nD) (b : Fin 2048) :
    rawOf (Gen.V m c main_v38) (Gen.V m c main_v39) (Gen.V m c main_v41) b
      = rawK (m ((c.tc : Thread nD τ).loc main_arg2)) (m ((c.tc : Thread nD τ).loc main_arg0)) (m ((c.tc : Thread nD τ).loc main_arg1)) b := by
  unfold rawOf partOf rawK
  refine Finset.sum_congr rfl fun i _ => ?_
  rw [KHost.v41_apply]
  refine congrArg _ (Finset.sum_congr rfl fun g _ => ?_)
  rw [KHost.v41_apply]
  refine congrArg _ (Finset.sum_congr rfl fun e _ => ?_)
  rw [KHost.v38_apply, KHost.v39_apply]

end Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both idealized programs end at the logistic of the first-order term plus the sum over the pairs `i < j`. -/
theorem algebraic : Cert.algebraic_KernelIdeal_ReferenceIdeal := by
  intro m ρ m' ρ' hpre hagree
  refine ⟨fun c => sigTail
      (Cert.ReferenceIdeal.Stages.first (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3)))
      (fun j => secR (m ((c.tc : Thread Cert.KernelIdeal.nD Cert.KernelIdeal.τ).loc Cert.KernelIdeal.main_arg2))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (tab Cert.ReferenceIdeal.Stages.litI) (tab Cert.ReferenceIdeal.Stages.litJ) (j 0)), ?_, ?_⟩
  · refine (θ_run Cert.KernelIdeal.defs _ _).mono (fun _ h c => ⟨(h c).1.trans ?_, (h c).2⟩) (Cert.KernelIdeal.KValue.run m ρ)
    rw [Cert.KernelIdeal.KHost.v9_eq, first_eq]
    refine congrArg _ (funext fun j => ?_)
    obtain ⟨b, rfl⟩ : ∃ b : Fin 2048, j = ix1 b := ⟨j 0, eq_ix1 j⟩
    unfold halfDiff
    show _ * (rawOf _ _ _ b - _) = secR _ _ _ _ _ b
    rw [raw_eq, Cert.KernelIdeal.KDiag.v27_apply]
    exact Cert.Algebra.bridge _ _ _ (Cert.KernelIdeal.Finite.vals_real m hpre c) (Cert.KernelIdeal.Finite.emb_real m hpre c) _ _
      Cert.ReferenceIdeal.Tables.pair_table b
  · refine (θ_run Cert.ReferenceIdeal.defs _ _).mono (fun _ h c => ⟨?_, (h c).2⟩) (Cert.ReferenceIdeal.RefRun.run (F := Ideal) m' ρ')
    rw [(h c).1, (hagree c).1, (hagree c).2.1, (hagree c).2.2.1, (hagree c).2.2.2]
    exact Cert.ReferenceIdeal.RefRead.RefTerm_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
